-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S3x256x256 : Shape := ⟨3, ![3, 256, 256]⟩
abbrev S8x2048 : Shape := ⟨2, ![8, 2048]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S3x256x256 : S_.BroadcastsInDim S3x256x256 (![] : Fin 0 → Fin S3x256x256.rank)
  reducesTo_S3x256x256_S_d0_1_2 : S3x256x256.ReducesTo [0, 1, 2] S_

variable [Facts]

def fn {F : FTy → Type} [FloatOps F] (main_arg0 : FVec F S8x2048x256 .f32) (main_arg1 : FVec F S3x256x256 .f32) (main_arg2 : IVec S8x2048 1) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S3x256x256 .f32 := Host.absf main_arg1
  let main_cst_0 : FVec F S_ .f32 := constant S_ .f32 0x7F800000#32
  let main_v5 : FVec F S3x256x256 .f32 := broadcastInDim S3x256x256 ![] bcast_S_S3x256x256 main_cst_0
  let main_v6 : IVec S3x256x256 1 := cmpf .olt main_v4 main_v5
  let main_c_1 : IVec S_ 1 := constantI S_ 1 1#1
  let main_v7 : IVec S_ 1 := (fun x v => Host.reduce IntOp.andi x v reducesTo_S3x256x256_S_d0_1_2 h_S_) main_v6 main_c_1
  let main_v8 : IVec S_ 1 := andi main_v3 main_v7
  main_v8
-- ==== Kernel.lean ====
abbrev S8x2048x256 : Shape := ⟨3, ![8, 2048, 256]⟩
abbrev S3x256x256 : Shape := ⟨3, ![3, 256, 256]⟩
abbrev S8x2048 : Shape := ⟨2, ![8, 2048]⟩
abbrev S8x2048x1 : Shape := ⟨3, ![8, 2048, 1]⟩
abbrev S1x2048x256 : Shape := ⟨3, ![1, 2048, 256]⟩
abbrev S1x2048x1 : Shape := ⟨3, ![1, 2048, 1]⟩
abbrev S2048x256 : Shape := ⟨2, ![2048, 256]⟩
abbrev S2048x1 : Shape := ⟨2, ![2048, 1]⟩
abbrev S1x256x256 : Shape := ⟨3, ![1, 256, 256]⟩
abbrev S256x256 : Shape := ⟨2, ![256, 256]⟩
abbrev S512x256 : Shape := ⟨2, ![512, 256]⟩
abbrev S256x512 : Shape := ⟨2, ![256, 512]⟩
abbrev S2048x512 : Shape := ⟨2, ![2048, 512]⟩
abbrev S2048 : Shape := ⟨1, ![2048]⟩

abbrev nBuf : Space → Nat
  | .hbm => 6
  | .vmem => 13
  | .smem => 0
  | _ => 0

abbrev bufTy : (tb : Table) → Fin (tcTables nBuf tb) → BufTy
  | .hbm, ⟨0, _⟩ => ⟨S8x2048x256, .f32⟩
  | .hbm, ⟨1, _⟩ => ⟨S3x256x256, .f32⟩
  | .hbm, ⟨2, _⟩ => ⟨S8x2048, .i1⟩
  | .hbm, ⟨3, _⟩ => ⟨S8x2048, .f32⟩
  | .hbm, ⟨4, _⟩ => ⟨S8x2048x1, .f32⟩
  | .hbm, ⟨5, _⟩ => ⟨S8x2048x256, .f32⟩
  | .local _ .vmem, ⟨0, _⟩ => ⟨S1x2048x256, .f32⟩
  | .local _ .vmem, ⟨1, _⟩ => ⟨S1x2048x256, .f32⟩
  | .local _ .vmem, ⟨2, _⟩ => ⟨S3x256x256, .f32⟩
  | .local _ .vmem, ⟨3, _⟩ => ⟨S1x2048x1, .f32⟩
  | .local _ .vmem, ⟨4, _⟩ => ⟨S1x2048x1, .f32⟩
  | .local _ .vmem, ⟨5, _⟩ => ⟨S1x2048x256, .f32⟩
  | .local _ .vmem, ⟨6, _⟩ => ⟨S1x2048x256, .f32⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x1, .f32⟩
  | .local _ .vmem, ⟨11, _⟩ => ⟨S2048x1, .f32⟩
  | .local _ .vmem, ⟨12, _⟩ => ⟨S2048x256, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c3_i32 : BitVec 32 := 3#32
  let v42 : BitVec 1 := Scalar.cmpi .eq arg1 c3_i32
  let v43 : BitVec 32 := Scalar.extui v42
  let c0_i32_21 : BitVec 32 := 0#32
  let v44 : BitVec 1 := Scalar.cmpi .ne v43 c0_i32_21
  v44

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S8x2048_S8x2048x1_0_1 : S8x2048.BroadcastsInDim S8x2048x1 (![0, 1] : Fin 2 → Fin S8x2048x1.rank)
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S3x256x256_S1x256x256_0_0_0 : ∀ a, (![0, 0, 0] : Fin 3 → Nat) a + S1x256x256.size a ≤ S3x256x256.size a
  h_S1x256x256 : 0 < S1x256x256.numel
  shapeCasts_S1x256x256_S256x256 : S1x256x256.ShapeCasts S256x256
  inb_S3x256x256_S1x256x256_1_0_0 : ∀ a, (![1, 0, 0] : Fin 3 → Nat) a + S1x256x256.size a ≤ S3x256x256.size a
  inb_S3x256x256_S1x256x256_2_0_0 : ∀ a, (![2, 0, 0] : Fin 3 → Nat) a + S1x256x256.size a ≤ S3x256x256.size a
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  broadcasts_S2048x1_S2048x256 : S2048x1.Broadcasts S2048x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  packedbf16_S2048x256_S2048x256_0_0 : (Rect.unit (s := S2048x256) ![0, 0] S2048x256.size inb_S2048x256_S2048x256_0_0).PackedRows (EltTy.packing .bf16)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  h_S512x256 : 0 < S512x256.numel
  transposes_S512x256_p1_0_S256x512 : S512x256.Transposes [1, 0] S256x512
  reduces_S2048x512_S2048 : S2048x512.Reduces [1] S2048
  shapeCasts_S2048_S2048x1 : S2048.ShapeCasts S2048x1
  broadcasts_S2048x1_S2048x512 : S2048x1.Broadcasts S2048x512
  shapeCasts_S2048x256_S1x2048x256 : S2048x256.ShapeCasts S1x2048x256
  dot_S2048x256_S256x256_S2048x256_1_0_0_1_n_n_wf : DotDims.WF S2048x256 S256x256 S2048x256 [1] [0] [0] [1] [] []
  dot_S2048x256_S256x512_S2048x512_1_0_0_1_n_n_wf : DotDims.WF S2048x256 S256x512 S2048x512 [1] [0] [0] [1] [] []
  dot_S2048x512_S512x256_S2048x256_1_0_0_1_n_n_wf : DotDims.WF S2048x512 S512x256 S2048x256 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x256.size a ≤ S2048x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .f32 = 32 ∨ (Rect.block (s := S8x2048x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x256x256.size a ≤ S3x256x256.size a
  hwx0_1 : ∀ i : grid0.Coords, EltTy.bits .f32 = 32 ∨ (Rect.block (s := S3x256x256) S3x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1.size a ≤ S8x2048x1.size a
  hwx0_2 : ∀ i : grid0.Coords, EltTy.bits .f32 = 32 ∨ (Rect.block (s := S8x2048x1) S1x2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x256.size a ≤ S8x2048x256.size a
  hwx0_3 : ∀ i : grid0.Coords, EltTy.bits .f32 = 32 ∨ (Rect.block (s := S8x2048x256) S1x2048x256.size (cc0_transform_3 i) (hinb0_3 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x2048x256 : Shape := ⟨3, ![8, 2048, 256]⟩
abbrev S3x256x256 : Shape := ⟨3, ![3, 256, 256]⟩
abbrev S8x2048 : Shape := ⟨2, ![8, 2048]⟩
abbrev S1x256x256 : Shape := ⟨3, ![1, 256, 256]⟩
abbrev S256x256 : Shape := ⟨2, ![256, 256]⟩
abbrev S8x2048x2048 : Shape := ⟨3, ![8, 2048, 2048]⟩
abbrev S_ : Shape := ⟨0, ![]⟩
abbrev S8x2048x1 : Shape := ⟨3, ![8, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S3x256x256, .f32⟩
  | .hbm, ⟨2, _⟩ => ⟨S8x2048, .i1⟩
  | .hbm, ⟨3, _⟩ => ⟨S1x256x256, .f32⟩
  | .hbm, ⟨4, _⟩ => ⟨S256x256, .f32⟩
  | .hbm, ⟨5, _⟩ => ⟨S8x2048x256, .f32⟩
  | .hbm, ⟨6, _⟩ => ⟨S1x256x256, .f32⟩
  | .hbm, ⟨7, _⟩ => ⟨S256x256, .f32⟩
  | .hbm, ⟨8, _⟩ => ⟨S8x2048x256, .f32⟩
  | .hbm, ⟨9, _⟩ => ⟨S1x256x256, .f32⟩
  | .hbm, ⟨10, _⟩ => ⟨S256x256, .f32⟩
  | .hbm, ⟨11, _⟩ => ⟨S8x2048x256, .f32⟩
  | .hbm, ⟨12, _⟩ => ⟨S8x2048x2048, .f32⟩
  | .hbm, ⟨13, _⟩ => ⟨S_, .f32⟩
  | .hbm, ⟨14, _⟩ => ⟨S8x2048x2048, .f32⟩
  | .hbm, ⟨15, _⟩ => ⟨S8x2048x2048, .f32⟩
  | .hbm, ⟨16, _⟩ => ⟨S8x2048x1, .i1⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048, .f32⟩
  | .hbm, ⟨22, _⟩ => ⟨S_, .f32⟩
  | .hbm, ⟨23, _⟩ => ⟨S8x2048, .f32⟩
  | .hbm, ⟨24, _⟩ => ⟨S8x2048, .f32⟩
  | .hbm, ⟨25, _⟩ => ⟨S8x2048x1, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]

class Facts₀ : Prop where
  slices_S3x256x256_S1x256x256_0_0_0 : S3x256x256.Slices ![0, 0, 0] S1x256x256
  shapeCasts_S1x256x256_S256x256 : S1x256x256.ShapeCasts S256x256
  slices_S3x256x256_S1x256x256_1_0_0 : S3x256x256.Slices ![1, 0, 0] S1x256x256
  slices_S3x256x256_S1x256x256_2_0_0 : S3x256x256.Slices ![2, 0, 0] S1x256x256
  bcast_S_S8x2048x2048 : S_.BroadcastsInDim S8x2048x2048 (![] : Fin 0 → Fin S8x2048x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  dot_S8x2048x256_S256x256_S8x2048x256_2_0_01_1_n_n_wf : DotDims.WF S8x2048x256 S256x256 S8x2048x256 [2] [0] [0, 1] [1] [] []
  dot_S8x2048x256_S8x2048x256_S8x2048x2048_2_2_1_1_0_0_wf : DotDims.WF S8x2048x256 S8x2048x256 S8x2048x2048 [2] [2] [1] [1] [0] [0]
  dot_S8x2048x2048_S8x2048x256_S8x2048x256_2_1_1_2_0_0_wf : DotDims.WF S8x2048x2048 S8x2048x256 S8x2048x256 [2] [1] [1] [2] [0] [0]

variable [Facts₀]

def dot_S8x2048x256_S256x256_S8x2048x256_2_0_01_1_n_n : DotDims S8x2048x256 S256x256 S8x2048x256 where
  lhsContracting := [2]
  rhsContracting := [0]
  lhsNonContracting := [0, 1]
  rhsNonContracting := [1]
  lhsBatch := []
  rhsBatch := []
  wf := dot_S8x2048x256_S256x256_S8x2048x256_2_0_01_1_n_n_wf
def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf

class Facts : Prop extends Facts₀ where

variable [Facts]
-- ==== Proof.AttnSpec.lean ====
/-
  Masked, scaled dot-product self-attention over the reals, entry by entry.

  A batch of 8 sequences of 2048 tokens with 256 features each is projected three times through 256 x 256
  weight matrices: queries (matrix 0), keys (matrix 1), values (matrix 2). The score of query row r against key
  row t is the inner product of their projections, scaled by 1/8 and multiplied by the query row's mask value.
  The output row r is the softmax-weighted average of the value rows: each value row t weighs exp (score r t)
  over the sum of those exponentials.
-/
import Idealize.ShloMosaic.Lib.ValueIdx

noncomputable section

open scoped BigOperators

namespace Cert.Attn

open Idealize.ShloMosaic Idealize.ShloMosaic.ValueIdx

/-- The index sets of the three arguments: tokens [8, 2048, 256], weights [3, 256, 256], mask [8, 2048]. -/
abbrev SX : Shape := ⟨3, ![8, 2048, 256]⟩
abbrev SW : Shape := ⟨3, ![3, 256, 256]⟩
abbrev SM : Shape := ⟨2, ![8, 2048]⟩

variable (X : SX.Idx → ℝ) (W : SW.Idx → ℝ) (μ : SM.Idx → ℝ)

/-- Projection `p` (0 queries, 1 keys, 2 values) of token `t` of batch `b`, output feature `e`. -/
def proj (p : Fin 3) (b : Fin 8) (t : Fin 2048) (e : Fin 256) : ℝ :=
  ∑ d : Fin 256, X (ix3 b t d) * W (ix3 p d e)

/-- The masked, scaled score of query row `r` against key row `t` in batch `b`. -/
def score (b : Fin 8) (r t : Fin 2048) : ℝ :=
  ((∑ e : Fin 256, proj X W 0 b r e * proj X W 1 b t e) * (1 / 8 : ℝ)) * μ (ix2 b r)

/-- The attention output: the value rows averaged with softmax weights of the scores of row `r`. -/
def out (b : Fin 8) (r : Fin 2048) (e : Fin 256) : ℝ :=
  (∑ t : Fin 2048, Real.exp (score X W μ b r t) * proj X W 2 b t e) / (∑ t : Fin 2048, Real.exp (score X W μ b r t))

end Cert.Attn

end
-- ==== Proof.FiniteArgs.lean ====
/-
  The precondition says every entry of the two float arguments has absolute value below +∞; on the extended
  reals (where an entry is a real, -∞ or +∞) that makes every entry a real number.
-/
import proofs.«180451_j15977278341749_2_alg».proof.Defs
import proofs.«180451_j15977278341749_2_alg».proof.Proof.Gen.Pre_finite_inputs
import proofs.«180451_j15977278341749_2_alg».proof.Proof.AttnSpec
import Idealize.ShloMosaic.Lib.ReduceAll
import Idealize.ShloMosaic.Lib.ValueIdx

noncomputable section

namespace Cert.FiniteArgs

open Idealize.ShloMosaic Idealize.SL.Sem

instance : Subsingleton Cert.Pre_finite_inputs.S_.Idx := ⟨fun a b => funext fun d => d.elim0⟩

/-- The 32-bit pattern with all exponent bits set and no fraction bits denotes +∞. -/
theorem inf_pattern : Ideal.ofBits .f32 0x7F800000#32 = (⊤ : EReal) := by
  simp [Ideal.ofBits, Ideal.ieee]

/-- An extended real whose absolute value max x (-x) is below +∞ is a real: it is neither -∞ nor +∞. -/
theorem real_of_abs_lt (x : EReal)
    (hx : Ideal.cmp .olt (max x (-x)) (Ideal.ofBits .f32 0x7F800000#32) = 1#1) : ∃ r : ℝ, x = (r : EReal) := by
  rw [inf_pattern] at hx
  induction x using EReal.rec with
  | bot => simp [Ideal.cmp] at hx
  | coe r => exact ⟨r, rfl⟩
  | top => simp [Ideal.cmp] at hx

theorem real_args
    (m : (ℓ : Loc Cert.KernelIdeal.nD Cert.KernelIdeal.τ Cert.KernelIdeal.sig) → Buf (Elt Ideal) ℓ)
    (h : Cert.Pre_KernelIdeal m) (c : Dev Cert.KernelIdeal.nD) :
    ∃ (X : Cert.Attn.SX.Idx → ℝ) (W : Cert.Attn.SW.Idx → ℝ),
      m ((c.tc : Thread Cert.KernelIdeal.nD Cert.KernelIdeal.τ).loc Cert.KernelIdeal.main_arg0)
          = (fun i => ((X i : ℝ) : EReal))
        ∧ m ((c.tc : Thread Cert.KernelIdeal.nD Cert.KernelIdeal.τ).loc Cert.KernelIdeal.main_arg1)
          = (fun i => ((W i : ℝ) : EReal)) := by
  have h0 := congrFun (h c) ValueIdx.ix0
  dsimp only [Cert.Pre_finite_inputs.fn] at h0
  -- the conjunction of the two "all entries finite" tests
  obtain ⟨hx, hw⟩ := IntOp.andi_eq_one.1 (show IntOp.andi _ _ = 1#1 from h0)
  have ex : ∀ i : Cert.Attn.SX.Idx, ∃ r : ℝ,
      m ((c.tc : Thread Cert.KernelIdeal.nD Cert.KernelIdeal.τ).loc Cert.KernelIdeal.main_arg0) i = (r : EReal) :=
    fun i => real_of_abs_lt _ (Host.reduce_andi_all _ _ _ _ _ hx i)
  have ew : ∀ i : Cert.Attn.SW.Idx, ∃ r : ℝ,
      m ((c.tc : Thread Cert.KernelIdeal.nD Cert.KernelIdeal.τ).loc Cert.KernelIdeal.main_arg1) i = (r : EReal) :=
    fun i => real_of_abs_lt _ (Host.reduce_andi_all _ _ _ _ _ hw i)
  choose X hX using ex
  choose W hW using ew
  exact ⟨X, W, funext hX, funext hW⟩

end Cert.FiniteArgs

end
-- ==== Proof.Pieces.lean ====
/-
  What each control case of the kernel body leaves in the carried buffers, as plain functions of what it found.

  The body keeps six buffers between grid points: the query, key and value projections of the batch's 2048 rows
  (filled at the first key tile), the running row maximum, the running normaliser and the running weighted sum.
  At the first key tile of a batch it fills the projections, resets the running state to (-∞, 0, 0) and performs
  the first update; at the later tiles it performs one update on the state the previous point left; at the last
  tile it also writes the quotient of the weighted sum by the normaliser to the output block. One update reads
  512 rows of the key and value projections (the tile of the point).
-/
import proofs.«180451_j15977278341749_2_alg».proof.Proof.Gen.KernelIdeal.Frame
import Idealize.ShloMosaic.Lib.Pipeline.Value

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- What one whole-buffer store left, read back: the stored array. -/
theorem read_writes_whole {Val : EltTy → Type} [∀ e, Nonempty (Val e)] {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

/-- Weight matrix `p` of the [3, 256, 256] weights block, as a [1, 256, 256] slab. -/
abbrev slab0 (x1 : Vec F S3x256x256 .f32) : Vec F S1x256x256 .f32 :=
  View.ld x1 (Rect.unit (s := S3x256x256) ![0, 0, 0] S1x256x256.size inb_S3x256x256_S1x256x256_0_0_0)
abbrev slab1 (x1 : Vec F S3x256x256 .f32) : Vec F S1x256x256 .f32 :=
  View.ld x1 (Rect.unit (s := S3x256x256) ![1, 0, 0] S1x256x256.size inb_S3x256x256_S1x256x256_1_0_0)
abbrev slab2 (x1 : Vec F S3x256x256 .f32) : Vec F S1x256x256 .f32 :=
  View.ld x1 (Rect.unit (s := S3x256x256) ![2, 0, 0] S1x256x256.size inb_S3x256x256_S1x256x256_2_0_0)

/-- The 512 rows of a [2048, 256] projection that the point's key tile covers. -/
abbrev tile (i : grid0.Coords) (w : Vec F S2048x256 .bf16) : Vec F S512x256 .bf16 :=
  View.ld w (Rect.unit (s := S2048x256) (k0_off1 i) S512x256.size (k0_off1_inb i))

/-- One update of the running maximum: the old maximum against the tile's row maxima of the scores. -/
def newM (kt : Vec F S512x256 .bf16) (q : Vec F S2048x256 .bf16) (mx : Vec F S2048x1 .f32) : Vec F S2048x1 .f32 :=
  k0_pay2 (k0_pay12 kt q mx)
/-- One update of the running normaliser. -/
def newL (kt : Vec F S512x256 .bf16) (q : Vec F S2048x256 .bf16) (mx l : Vec F S2048x1 .f32) : Vec F S2048x1 .f32 :=
  k0_pay15 kt q mx mx l
/-- One update of the running weighted sum. -/
def newAcc (kt vt : Vec F S512x256 .bf16) (q : Vec F S2048x256 .bf16) (mx : Vec F S2048x1 .f32) (acc : Vec F S2048x256 .f32) :
    Vec F S2048x256 .f32 :=
  k0_pay1 (k0_pay16 kt vt q mx) (k0_pay17 kt q mx mx acc)

/-! ## The first key tile of a batch -/

theorem first_q (c : Dev nD) (i : grid0.Coords) (arg2 : Memref sig .tc .vmem S1x2048x256 .f32) (harg2 : arg2.IsWhole) (arg3 : Memref sig .tc .vmem S3x256x256 .f32) (harg3 : arg3.IsWhole) (arg4 : Memref sig .tc .vmem S1x2048x1 .f32) (harg4 : arg4.IsWhole) (arg5 : Memref sig .tc .vmem S1x2048x256 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond0_0 i) (hc1 : ¬cond0_1 i)
    (x0 : Vec F S1x2048x256 .f32) (x1 : Vec F S3x256x256 .f32) (x2 : Vec F S1x2048x1 .f32) :
    sout0_A_0 c i arg2 harg2 arg3 harg3 arg4 harg4 arg5 harg5 arg6 harg6 arg7 harg7 arg8 harg8 arg9 harg9 arg10 harg10 arg11 harg11 hc0 hc1 x0 x1 x2 = k0_pay5 x0 (slab0 x1) x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2)]
  unfold kernelRun0_A
  dsimp only
  try sl_unfold_words
  rw [View.canon_unit_zero (S := S2048x256) hz2]
  simp only [View.readCov_unit_zero (S := S2048x1) _ hz2, View.readCov_unit_zero (S := S2048x256) _ hz2,
    View.readAt_eq_ld, read_writes_whole (S := S2048x256) _ _ hz2, read_writes_whole (S := S2048x1) _ _ hz2,
    harg2.read_unread, harg3.read_unread, harg4.read_unread, harg6.read_unread, harg7.read_unread, harg8.read_unread,
    harg9.read_unread, harg10.read_unread, harg11.read_unread,
    View.ld_unit_zero (S := S1x2048x256) hz3, View.ld_unit_zero (S := S1x2048x1) hz3, View.ld_unit_zero (S := S2048x256) hz2,
    View.ld_unit_zero (S := S2048x1) hz2]

theorem first_k (c : Dev nD) (i : grid0.Coords) (arg2 : Memref sig .tc .vmem S1x2048x256 .f32) (harg2 : arg2.IsWhole) (arg3 : Memref sig .tc .vmem S3x256x256 .f32) (harg3 : arg3.IsWhole) (arg4 : Memref sig .tc .vmem S1x2048x1 .f32) (harg4 : arg4.IsWhole) (arg5 : Memref sig .tc .vmem S1x2048x256 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond0_0 i) (hc1 : ¬cond0_1 i)
    (x0 : Vec F S1x2048x256 .f32) (x1 : Vec F S3x256x256 .f32) (x2 : Vec F S1x2048x1 .f32) :
    sout0_A_1 c i arg2 harg2 arg3 harg3 arg4 harg4 arg5 harg5 arg6 harg6 arg7 harg7 arg8 harg8 arg9 harg9 arg10 harg10 arg11 harg11 hc0 hc1 x0 x1 x2 = k0_pay6 x0 (slab1 x1) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2)]
  unfold kernelRun0_A
  dsimp only
  try sl_unfold_words
  rw [View.canon_unit_zero (S := S2048x256) hz2]
  simp only [View.readCov_unit_zero (S := S2048x1) _ hz2, View.readCov_unit_zero (S := S2048x256) _ hz2,
    View.readAt_eq_ld, read_writes_whole (S := S2048x256) _ _ hz2, read_writes_whole (S := S2048x1) _ _ hz2,
    harg2.read_unread, harg3.read_unread, harg4.read_unread, harg6.read_unread, harg7.read_unread, harg8.read_unread,
    harg9.read_unread, harg10.read_unread, harg11.read_unread,
    View.ld_unit_zero (S := S1x2048x256) hz3, View.ld_unit_zero (S := S1x2048x1) hz3, View.ld_unit_zero (S := S2048x256) hz2,
    View.ld_unit_zero (S := S2048x1) hz2]

theorem first_v (c : Dev nD) (i : grid0.Coords) (arg2 : Memref sig .tc .vmem S1x2048x256 .f32) (harg2 : arg2.IsWhole) (arg3 : Memref sig .tc .vmem S3x256x256 .f32) (harg3 : arg3.IsWhole) (arg4 : Memref sig .tc .vmem S1x2048x1 .f32) (harg4 : arg4.IsWhole) (arg5 : Memref sig .tc .vmem S1x2048x256 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond0_0 i) (hc1 : ¬cond0_1 i)
    (x0 : Vec F S1x2048x256 .f32) (x1 : Vec F S3x256x256 .f32) (x2 : Vec F S1x2048x1 .f32) :
    sout0_A_2 c i arg2 harg2 arg3 harg3 arg4 harg4 arg5 harg5 arg6 harg6 arg7 harg7 arg8 harg8 arg9 harg9 arg10 harg10 arg11 harg11 hc0 hc1 x0 x1 x2 = k0_pay7 x0 (slab2 x1) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2)]
  unfold kernelRun0_A
  dsimp only
  try sl_unfold_words
  rw [View.canon_unit_zero (S := S2048x256) hz2]
  simp only [View.readCov_unit_zero (S := S2048x1) _ hz2, View.readCov_unit_zero (S := S2048x256) _ hz2,
    View.readAt_eq_ld, read_writes_whole (S := S2048x256) _ _ hz2, read_writes_whole (S := S2048x1) _ _ hz2,
    harg2.read_unread, harg3.read_unread, harg4.read_unread, harg6.read_unread, harg7.read_unread, harg8.read_unread,
    harg9.read_unread, harg10.read_unread, harg11.read_unread,
    View.ld_unit_zero (S := S1x2048x256) hz3, View.ld_unit_zero (S := S1x2048x1) hz3, View.ld_unit_zero (S := S2048x256) hz2,
    View.ld_unit_zero (S := S2048x1) hz2]

theorem first_m (c : Dev nD) (i : grid0.Coords) (arg2 : Memref sig .tc .vmem S1x2048x256 .f32) (harg2 : arg2.IsWhole) (arg3 : Memref sig .tc .vmem S3x256x256 .f32) (harg3 : arg3.IsWhole) (arg4 : Memref sig .tc .vmem S1x2048x1 .f32) (harg4 : arg4.IsWhole) (arg5 : Memref sig .tc .vmem S1x2048x256 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond0_0 i) (hc1 : ¬cond0_1 i)
    (x0 : Vec F S1x2048x256 .f32) (x1 : Vec F S3x256x256 .f32) (x2 : Vec F S1x2048x1 .f32) :
    sout0_A_3 c i arg2 harg2 arg3 harg3 arg4 harg4 arg5 harg5 arg6 harg6 arg7 harg7 arg8 harg8 arg9 harg9 arg10 harg10 arg11 harg11 hc0 hc1 x0 x1 x2 = newM (tile i (k0_pay6 x0 (slab1 x1))) (k0_pay5 x0 (slab0 x1) x2) k0_pay8 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 hc0 hc1 x0 x1 x2)]
  unfold kernelRun0_A
  dsimp only
  try sl_unfold_words
  rw [View.canon_cons_unit_zero (S := S2048x1) hz2]
  simp only [View.readCov_unit_zero (S := S2048x1) _ hz2, View.readCov_unit_zero (S := S2048x256) _ hz2,
    View.readAt_eq_ld, read_writes_whole (S := S2048x256) _ _ hz2, read_writes_whole (S := S2048x1) _ _ hz2,
    harg2.read_unread, harg3.read_unread, harg4.read_unread, harg6.read_unread, harg7.read_unread, harg8.read_unread,
    harg9.read_unread, harg10.read_unread, harg11.read_unread,
    View.ld_unit_zero (S := S1x2048x256) hz3, View.ld_unit_zero (S := S1x2048x1) hz3, View.ld_unit_zero (S := S2048x256) hz2,
    View.ld_unit_zero (S := S2048x1) hz2]
  rfl

theorem first_l (c : Dev nD) (i : grid0.Coords) (arg2 : Memref sig .tc .vmem S1x2048x256 .f32) (harg2 : arg2.IsWhole) (arg3 : Memref sig .tc .vmem S3x256x256 .f32) (harg3 : arg3.IsWhole) (arg4 : Memref sig .tc .vmem S1x2048x1 .f32) (harg4 : arg4.IsWhole) (arg5 : Memref sig .tc .vmem S1x2048x256 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond0_0 i) (hc1 : ¬cond0_1 i)
    (x0 : Vec F S1x2048x256 .f32) (x1 : Vec F S3x256x256 .f32) (x2 : Vec F S1x2048x1 .f32) :
    sout0_A_4 c i arg2 harg2 arg3 harg3 arg4 harg4 arg5 harg5 arg6 harg6 arg7 harg7 arg8 harg8 arg9 harg9 arg10 harg10 arg11 harg11 hc0 hc1 x0 x1 x2 = newL (tile i (k0_pay6 x0 (slab1 x1))) (k0_pay5 x0 (slab0 x1) x2) k0_pay8 k0_pay9 := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 hc0 hc1 x0 x1 x2)]
  unfold kernelRun0_A
  dsimp only
  try sl_unfold_words
  rw [View.canon_cons_unit_zero (S := S2048x1) hz2]
  simp only [View.readCov_unit_zero (S := S2048x1) _ hz2, View.readCov_unit_zero (S := S2048x256) _ hz2,
    View.readAt_eq_ld, read_writes_whole (S := S2048x256) _ _ hz2, read_writes_whole (S := S2048x1) _ _ hz2,
    harg2.read_unread, harg3.read_unread, harg4.read_unread, harg6.read_unread, harg7.read_unread, harg8.read_unread,
    harg9.read_unread, harg10.read_unread, harg11.read_unread,
    View.ld_unit_zero (S := S1x2048x256) hz3, View.ld_unit_zero (S := S1x2048x1) hz3, View.ld_unit_zero (S := S2048x256) hz2,
    View.ld_unit_zero (S := S2048x1) hz2]
  rfl

theorem first_acc (c : Dev nD) (i : grid0.Coords) (arg2 : Memref sig .tc .vmem S1x2048x256 .f32) (harg2 : arg2.IsWhole) (arg3 : Memref sig .tc .vmem S3x256x256 .f32) (harg3 : arg3.IsWhole) (arg4 : Memref sig .tc .vmem S1x2048x1 .f32) (harg4 : arg4.IsWhole) (arg5 : Memref sig .tc .vmem S1x2048x256 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond0_0 i) (hc1 : ¬cond0_1 i)
    (x0 : Vec F S1x2048x256 .f32) (x1 : Vec F S3x256x256 .f32) (x2 : Vec F S1x2048x1 .f32) :
    sout0_A_5 c i arg2 harg2 arg3 harg3 arg4 harg4 arg5 harg5 arg6 harg6 arg7 harg7 arg8 harg8 arg9 harg9 arg10 harg10 arg11 harg11 hc0 hc1 x0 x1 x2 = newAcc (tile i (k0_pay6 x0 (slab1 x1))) (tile i (k0_pay7 x0 (slab2 x1))) (k0_pay5 x0 (slab0 x1) x2) k0_pay8 k0_pay10 := by
  unfold sout0_A_5
  rw [View.read_writes_eq_canon _ _ _ (scover0_A_5 c i arg2 harg2 arg3 harg3 arg4 harg4 arg5 harg5 arg6 harg6 arg7 harg7 arg8 harg8 arg9 harg9 arg10 harg10 arg11 harg11 hc0 hc1 x0 x1 x2)]
  unfold kernelRun0_A
  dsimp only
  try sl_unfold_words
  rw [View.canon_cons_unit_zero (S := S2048x256) hz2]
  simp only [View.readCov_unit_zero (S := S2048x1) _ hz2, View.readCov_unit_zero (S := S2048x256) _ hz2,
    View.readAt_eq_ld, read_writes_whole (S := S2048x256) _ _ hz2, read_writes_whole (S := S2048x1) _ _ hz2,
    harg2.read_unread, harg3.read_unread, harg4.read_unread, harg6.read_unread, harg7.read_unread, harg8.read_unread,
    harg9.read_unread, harg10.read_unread, harg11.read_unread,
    View.ld_unit_zero (S := S1x2048x256) hz3, View.ld_unit_zero (S := S1x2048x1) hz3, View.ld_unit_zero (S := S2048x256) hz2,
    View.ld_unit_zero (S := S2048x1) hz2]
  rfl

/-! ## A middle key tile -/

theorem mid_m (c : Dev nD) (i : grid0.Coords) (arg2 : Memref sig .tc .vmem S1x2048x256 .f32) (harg2 : arg2.IsWhole) (arg3 : Memref sig .tc .vmem S3x256x256 .f32) (harg3 : arg3.IsWhole) (arg4 : Memref sig .tc .vmem S1x2048x1 .f32) (harg4 : arg4.IsWhole) (arg5 : Memref sig .tc .vmem S1x2048x256 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond0_0 i) (hc1 : ¬cond0_1 i)
    (x0 : Vec F S1x2048x256 .f32) (x1 : Vec F S3x256x256 .f32) (x2 : Vec F S1x2048x1 .f32) (xs0 : Vec F S2048x256 .bf16) (xs1 : Vec F S2048x256 .bf16) (xs2 : Vec F S2048x256 .bf16) (xs3 : Vec F S2048x1 .f32) (xs4 : Vec F S2048x1 .f32) (xs5 : Vec F S2048x256 .f32) :
    sout0_B_3 c i arg2 harg2 arg3 harg3 arg4 harg4 arg5 harg5 arg6 harg6 arg7 harg7 arg8 harg8 arg9 harg9 arg10 harg10 arg11 harg11 hc0 hc1 x0 x1 x2 xs0 xs1 xs2 xs3 xs4 xs5 = newM (tile i xs1) xs0 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 hc0 hc1 x0 x1 x2 xs0 xs1 xs2 xs3 xs4 xs5)]
  unfold kernelRun0_B
  dsimp only
  try sl_unfold_words
  rw [View.canon_unit_zero (S := S2048x1) hz2]
  simp only [View.readCov_unit_zero (S := S2048x1) _ hz2, View.readCov_unit_zero (S := S2048x256) _ hz2,
    View.readAt_eq_ld, read_writes_whole (S := S2048x256) _ _ hz2, read_writes_whole (S := S2048x1) _ _ hz2,
    harg2.read_unread, harg3.read_unread, harg4.read_unread, harg6.read_unread, harg7.read_unread, harg8.read_unread,
    harg9.read_unread, harg10.read_unread, harg11.read_unread,
    View.ld_unit_zero (S := S1x2048x256) hz3, View.ld_unit_zero (S := S1x2048x1) hz3, View.ld_unit_zero (S := S2048x256) hz2,
    View.ld_unit_zero (S := S2048x1) hz2]
  rfl

theorem mid_l (c : Dev nD) (i : grid0.Coords) (arg2 : Memref sig .tc .vmem S1x2048x256 .f32) (harg2 : arg2.IsWhole) (arg3 : Memref sig .tc .vmem S3x256x256 .f32) (harg3 : arg3.IsWhole) (arg4 : Memref sig .tc .vmem S1x2048x1 .f32) (harg4 : arg4.IsWhole) (arg5 : Memref sig .tc .vmem S1x2048x256 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond0_0 i) (hc1 : ¬cond0_1 i)
    (x0 : Vec F S1x2048x256 .f32) (x1 : Vec F S3x256x256 .f32) (x2 : Vec F S1x2048x1 .f32) (xs0 : Vec F S2048x256 .bf16) (xs1 : Vec F S2048x256 .bf16) (xs2 : Vec F S2048x256 .bf16) (xs3 : Vec F S2048x1 .f32) (xs4 : Vec F S2048x1 .f32) (xs5 : Vec F S2048x256 .f32) :
    sout0_B_4 c i arg2 harg2 arg3 harg3 arg4 harg4 arg5 harg5 arg6 harg6 arg7 harg7 arg8 harg8 arg9 harg9 arg10 harg10 arg11 harg11 hc0 hc1 x0 x1 x2 xs0 xs1 xs2 xs3 xs4 xs5 = newL (tile i xs1) xs0 xs3 xs4 := by
  unfold sout0_B_4
  rw [View.read_writes_eq_canon _ _ _ (scover0_B_4 c i arg2 harg2 arg3 harg3 arg4 harg4 arg5 harg5 arg6 harg6 arg7 harg7 arg8 harg8 arg9 harg9 arg10 harg10 arg11 harg11 hc0 hc1 x0 x1 x2 xs0 xs1 xs2 xs3 xs4 xs5)]
  unfold kernelRun0_B
  dsimp only
  try sl_unfold_words
  rw [View.canon_unit_zero (S := S2048x1) hz2]
  simp only [View.readCov_unit_zero (S := S2048x1) _ hz2, View.readCov_unit_zero (S := S2048x256) _ hz2,
    View.readAt_eq_ld, read_writes_whole (S := S2048x256) _ _ hz2, read_writes_whole (S := S2048x1) _ _ hz2,
    harg2.read_unread, harg3.read_unread, harg4.read_unread, harg6.read_unread, harg7.read_unread, harg8.read_unread,
    harg9.read_unread, harg10.read_unread, harg11.read_unread,
    View.ld_unit_zero (S := S1x2048x256) hz3, View.ld_unit_zero (S := S1x2048x1) hz3, View.ld_unit_zero (S := S2048x256) hz2,
    View.ld_unit_zero (S := S2048x1) hz2]
  rfl

theorem mid_acc (c : Dev nD) (i : grid0.Coords) (arg2 : Memref sig .tc .vmem S1x2048x256 .f32) (harg2 : arg2.IsWhole) (arg3 : Memref sig .tc .vmem S3x256x256 .f32) (harg3 : arg3.IsWhole) (arg4 : Memref sig .tc .vmem S1x2048x1 .f32) (harg4 : arg4.IsWhole) (arg5 : Memref sig .tc .vmem S1x2048x256 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond0_0 i) (hc1 : ¬cond0_1 i)
    (x0 : Vec F S1x2048x256 .f32) (x1 : Vec F S3x256x256 .f32) (x2 : Vec F S1x2048x1 .f32) (xs0 : Vec F S2048x256 .bf16) (xs1 : Vec F S2048x256 .bf16) (xs2 : Vec F S2048x256 .bf16) (xs3 : Vec F S2048x1 .f32) (xs4 : Vec F S2048x1 .f32) (xs5 : Vec F S2048x256 .f32) :
    sout0_B_5 c i arg2 harg2 arg3 harg3 arg4 harg4 arg5 harg5 arg6 harg6 arg7 harg7 arg8 harg8 arg9 harg9 arg10 harg10 arg11 harg11 hc0 hc1 x0 x1 x2 xs0 xs1 xs2 xs3 xs4 xs5 = newAcc (tile i xs1) (tile i xs2) xs0 xs3 xs5 := by
  unfold sout0_B_5
  rw [View.read_writes_eq_canon _ _ _ (scover0_B_5 c i arg2 harg2 arg3 harg3 arg4 harg4 arg5 harg5 arg6 harg6 arg7 harg7 arg8 harg8 arg9 harg9 arg10 harg10 arg11 harg11 hc0 hc1 x0 x1 x2 xs0 xs1 xs2 xs3 xs4 xs5)]
  unfold kernelRun0_B
  dsimp only
  try sl_unfold_words
  rw [View.canon_unit_zero (S := S2048x256) hz2]
  simp only [View.readCov_unit_zero (S := S2048x1) _ hz2, View.readCov_unit_zero (S := S2048x256) _ hz2,
    View.readAt_eq_ld, read_writes_whole (S := S2048x256) _ _ hz2, read_writes_whole (S := S2048x1) _ _ hz2,
    harg2.read_unread, harg3.read_unread, harg4.read_unread, harg6.read_unread, harg7.read_unread, harg8.read_unread,
    harg9.read_unread, harg10.read_unread, harg11.read_unread,
    View.ld_unit_zero (S := S1x2048x256) hz3, View.ld_unit_zero (S := S1x2048x1) hz3, View.ld_unit_zero (S := S2048x256) hz2,
    View.ld_unit_zero (S := S2048x1) hz2]
  rfl

/-! ## The last key tile -/

theorem last_m (c : Dev nD) (i : grid0.Coords) (arg2 : Memref sig .tc .vmem S1x2048x256 .f32) (harg2 : arg2.IsWhole) (arg3 : Memref sig .tc .vmem S3x256x256 .f32) (harg3 : arg3.IsWhole) (arg4 : Memref sig .tc .vmem S1x2048x1 .f32) (harg4 : arg4.IsWhole) (arg5 : Memref sig .tc .vmem S1x2048x256 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond0_0 i) (hc1 : cond0_1 i)
    (x0 : Vec F S1x2048x256 .f32) (x1 : Vec F S3x256x256 .f32) (x2 : Vec F S1x2048x1 .f32) (xs0 : Vec F S2048x256 .bf16) (xs1 : Vec F S2048x256 .bf16) (xs2 : Vec F S2048x256 .bf16) (xs3 : Vec F S2048x1 .f32) (xs4 : Vec F S2048x1 .f32) (xs5 : Vec F S2048x256 .f32) :
    sout0_C_3 c i arg2 harg2 arg3 harg3 arg4 harg4 arg5 harg5 arg6 harg6 arg7 harg7 arg8 harg8 arg9 harg9 arg10 harg10 arg11 harg11 hc0 hc1 x0 x1 x2 xs0 xs1 xs2 xs3 xs4 xs5 = newM (tile i xs1) xs0 xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 hc0 hc1 x0 x1 x2 xs0 xs1 xs2 xs3 xs4 xs5)]
  unfold kernelRun0_C
  dsimp only
  try sl_unfold_words
  rw [View.canon_unit_zero (S := S2048x1) hz2]
  simp only [View.readCov_unit_zero (S := S2048x1) _ hz2, View.readCov_unit_zero (S := S2048x256) _ hz2,
    View.readAt_eq_ld, read_writes_whole (S := S2048x256) _ _ hz2, read_writes_whole (S := S2048x1) _ _ hz2,
    harg2.read_unread, harg3.read_unread, harg4.read_unread, harg6.read_unread, harg7.read_unread, harg8.read_unread,
    harg9.read_unread, harg10.read_unread, harg11.read_unread,
    View.ld_unit_zero (S := S1x2048x256) hz3, View.ld_unit_zero (S := S1x2048x1) hz3, View.ld_unit_zero (S := S2048x256) hz2,
    View.ld_unit_zero (S := S2048x1) hz2]
  rfl

theorem last_l (c : Dev nD) (i : grid0.Coords) (arg2 : Memref sig .tc .vmem S1x2048x256 .f32) (harg2 : arg2.IsWhole) (arg3 : Memref sig .tc .vmem S3x256x256 .f32) (harg3 : arg3.IsWhole) (arg4 : Memref sig .tc .vmem S1x2048x1 .f32) (harg4 : arg4.IsWhole) (arg5 : Memref sig .tc .vmem S1x2048x256 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond0_0 i) (hc1 : cond0_1 i)
    (x0 : Vec F S1x2048x256 .f32) (x1 : Vec F S3x256x256 .f32) (x2 : Vec F S1x2048x1 .f32) (xs0 : Vec F S2048x256 .bf16) (xs1 : Vec F S2048x256 .bf16) (xs2 : Vec F S2048x256 .bf16) (xs3 : Vec F S2048x1 .f32) (xs4 : Vec F S2048x1 .f32) (xs5 : Vec F S2048x256 .f32) :
    sout0_C_4 c i arg2 harg2 arg3 harg3 arg4 harg4 arg5 harg5 arg6 harg6 arg7 harg7 arg8 harg8 arg9 harg9 arg10 harg10 arg11 harg11 hc0 hc1 x0 x1 x2 xs0 xs1 xs2 xs3 xs4 xs5 = newL (tile i xs1) xs0 xs3 xs4 := by
  unfold sout0_C_4
  rw [View.read_writes_eq_canon _ _ _ (scover0_C_4 c i arg2 harg2 arg3 harg3 arg4 harg4 arg5 harg5 arg6 harg6 arg7 harg7 arg8 harg8 arg9 harg9 arg10 harg10 arg11 harg11 hc0 hc1 x0 x1 x2 xs0 xs1 xs2 xs3 xs4 xs5)]
  unfold kernelRun0_C
  dsimp only
  try sl_unfold_words
  rw [View.canon_unit_zero (S := S2048x1) hz2]
  simp only [View.readCov_unit_zero (S := S2048x1) _ hz2, View.readCov_unit_zero (S := S2048x256) _ hz2,
    View.readAt_eq_ld, read_writes_whole (S := S2048x256) _ _ hz2, read_writes_whole (S := S2048x1) _ _ hz2,
    harg2.read_unread, harg3.read_unread, harg4.read_unread, harg6.read_unread, harg7.read_unread, harg8.read_unread,
    harg9.read_unread, harg10.read_unread, harg11.read_unread,
    View.ld_unit_zero (S := S1x2048x256) hz3, View.ld_unit_zero (S := S1x2048x1) hz3, View.ld_unit_zero (S := S2048x256) hz2,
    View.ld_unit_zero (S := S2048x1) hz2]
  rfl

theorem last_acc (c : Dev nD) (i : grid0.Coords) (arg2 : Memref sig .tc .vmem S1x2048x256 .f32) (harg2 : arg2.IsWhole) (arg3 : Memref sig .tc .vmem S3x256x256 .f32) (harg3 : arg3.IsWhole) (arg4 : Memref sig .tc .vmem S1x2048x1 .f32) (harg4 : arg4.IsWhole) (arg5 : Memref sig .tc .vmem S1x2048x256 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond0_0 i) (hc1 : cond0_1 i)
    (x0 : Vec F S1x2048x256 .f32) (x1 : Vec F S3x256x256 .f32) (x2 : Vec F S1x2048x1 .f32) (xs0 : Vec F S2048x256 .bf16) (xs1 : Vec F S2048x256 .bf16) (xs2 : Vec F S2048x256 .bf16) (xs3 : Vec F S2048x1 .f32) (xs4 : Vec F S2048x1 .f32) (xs5 : Vec F S2048x256 .f32) :
    sout0_C_5 c i arg2 harg2 arg3 harg3 arg4 harg4 arg5 harg5 arg6 harg6 arg7 harg7 arg8 harg8 arg9 harg9 arg10 harg10 arg11 harg11 hc0 hc1 x0 x1 x2 xs0 xs1 xs2 xs3 xs4 xs5 = newAcc (tile i xs1) (tile i xs2) xs0 xs3 xs5 := by
  unfold sout0_C_5
  rw [View.read_writes_eq_canon _ _ _ (scover0_C_5 c i arg2 harg2 arg3 harg3 arg4 harg4 arg5 harg5 arg6 harg6 arg7 harg7 arg8 harg8 arg9 harg9 arg10 harg10 arg11 harg11 hc0 hc1 x0 x1 x2 xs0 xs1 xs2 xs3 xs4 xs5)]
  unfold kernelRun0_C
  dsimp only
  try sl_unfold_words
  rw [View.canon_unit_zero (S := S2048x256) hz2]
  simp only [View.readCov_unit_zero (S := S2048x1) _ hz2, View.readCov_unit_zero (S := S2048x256) _ hz2,
    View.readAt_eq_ld, read_writes_whole (S := S2048x256) _ _ hz2, read_writes_whole (S := S2048x1) _ _ hz2,
    harg2.read_unread, harg3.read_unread, harg4.read_unread, harg6.read_unread, harg7.read_unread, harg8.read_unread,
    harg9.read_unread, harg10.read_unread, harg11.read_unread,
    View.ld_unit_zero (S := S1x2048x256) hz3, View.ld_unit_zero (S := S1x2048x1) hz3, View.ld_unit_zero (S := S2048x256) hz2,
    View.ld_unit_zero (S := S2048x1) hz2]
  rfl

/-- The output block the last tile writes: the updated weighted sum over the updated normaliser. -/
theorem last_out (c : Dev nD) (i : grid0.Coords) (arg2 : Memref sig .tc .vmem S1x2048x256 .f32) (harg2 : arg2.IsWhole) (arg3 : Memref sig .tc .vmem S3x256x256 .f32) (harg3 : arg3.IsWhole) (arg4 : Memref sig .tc .vmem S1x2048x1 .f32) (harg4 : arg4.IsWhole) (arg5 : Memref sig .tc .vmem S1x2048x256 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond0_0 i) (hc1 : cond0_1 i)
    (x0 : Vec F S1x2048x256 .f32) (x1 : Vec F S3x256x256 .f32) (x2 : Vec F S1x2048x1 .f32) (xs0 : Vec F S2048x256 .bf16) (xs1 : Vec F S2048x256 .bf16) (xs2 : Vec F S2048x256 .bf16) (xs3 : Vec F S2048x1 .f32) (xs4 : Vec F S2048x1 .f32) (xs5 : Vec F S2048x256 .f32) :
    out0_C_3 c i arg2 harg2 arg3 harg3 arg4 harg4 arg5 harg5 arg6 harg6 arg7 harg7 arg8 harg8 arg9 harg9 arg10 harg10 arg11 harg11 hc0 hc1 x0 x1 x2 xs0 xs1 xs2 xs3 xs4 xs5 = k0_pay3 (newAcc (tile i xs1) (tile i xs2) xs0 xs3 xs5) (newL (tile i xs1) xs0 xs3 xs4) := by
  unfold out0_C_3
  rw [View.read_writes_eq_canon _ _ _ (cover0_C_3 c i arg2 harg2 arg3 harg3 arg4 harg4 arg5 harg5 arg6 harg6 arg7 harg7 arg8 harg8 arg9 harg9 arg10 harg10 arg11 harg11 hc0 hc1 x0 x1 x2 xs0 xs1 xs2 xs3 xs4 xs5)]
  unfold kernelRun0_C
  dsimp only
  try sl_unfold_words
  rw [View.canon_unit_zero (S := S1x2048x256) hz3]
  simp only [View.readCov_unit_zero (S := S2048x1) _ hz2, View.readCov_unit_zero (S := S2048x256) _ hz2,
    View.readAt_eq_ld, read_writes_whole (S := S2048x256) _ _ hz2, read_writes_whole (S := S2048x1) _ _ hz2,
    harg2.read_unread, harg3.read_unread, harg4.read_unread, harg6.read_unread, harg7.read_unread, harg8.read_unread,
    harg9.read_unread, harg10.read_unread, harg11.read_unread,
    View.ld_unit_zero (S := S1x2048x256) hz3, View.ld_unit_zero (S := S1x2048x1) hz3, View.ld_unit_zero (S := S2048x256) hz2,
    View.ld_unit_zero (S := S2048x1) hz2]
  rfl

end Cert.KernelIdeal.Tile

end
-- ==== Proof.Consts.lean ====
/-
  The float literals of the two programs as the extended reals their bit patterns denote.
-/
import Idealize.ShloMosaic.PureOps.Ideal

noncomputable section

namespace Cert.Consts

open Idealize.ShloMosaic

/-- The pattern of `+0.0` denotes `0`. -/
theorem ofBits_zero : Ideal.ofBits .f32 0x00000000#32 = 0 := by
  simp [Ideal.ofBits, Ideal.ieee]

/-- The pattern of `-∞` denotes `⊥`. -/
theorem ofBits_neg_inf : Ideal.ofBits .f32 0xFF800000#32 = ⊥ := by
  simp [Ideal.ofBits, Ideal.ieee]

/-- The pattern of `0.125` denotes the real `1 / 8`. -/
theorem ofBits_eighth : Ideal.ofBits .f32 0x3E000000#32 = ((1 / 8 : ℝ) : EReal) := by
  simp [Ideal.ofBits, Ideal.ieee, -EReal.coe_mul]; norm_num

end Cert.Consts

end
-- ==== Proof.LibGram.lean ====
/-
  Three readings of a matrix at an index, on the extended reals, for any extents.

  * A product of an [n0, K] matrix with an [n1, K] matrix that contracts the LAST axis of both (a Gram-type product
    x · yᵀ) sums, at the result index (r, c), over the positions of a one-axis contraction shape; re-indexed by that
    axis' coordinate it is ∑ k < K, l (r, k) · r (c, k). Stated for any dimension record of those shapes: the record owes
    one contracting axis of extent K (axis 1 on both sides) and free axes that read the result's coordinates.
  * A lane maximum of an [n, k] matrix over its ROWS (axis 0), at column c, is the fold of max from the accumulator's
    value over the n entries of that column; over its COLUMNS (axis 1), at row r, the fold over the row's k entries.
-/
import Idealize.ShloMosaic.PureOps.Ideal.Laws
import Idealize.ShloMosaic.Lib.ValueIdx

noncomputable section

open scoped BigOperators

namespace Idealize.ShloMosaic.Gram

open Idealize.ShloMosaic Idealize.ShloMosaic.ValueIdx

/-- The contraction sum of x · yᵀ at a result index is the sum over the shared last coordinate. -/
theorem sum_contr_last {n0 n1 K : ℕ} {M : Type*} [AddCommMonoid M] [Mul M]
    (D : DotDims (⟨2, ![n0, K]⟩ : Shape) (⟨2, ![n1, K]⟩ : Shape) (⟨2, ![n0, n1]⟩ : Shape))
    (hr : D.contr.rank = 1) (hs : D.contr.size ⟨0, by omega⟩ = K)
    (hlc : D.lhsContracting = [1]) (hrc : D.rhsContracting = [1])
    (hl0 : ∀ j q, (D.lhsIdx j q 0).val = (j 0).val) (hr0 : ∀ j q, (D.rhsIdx j q 0).val = (j 1).val)
    (l : (⟨2, ![n0, K]⟩ : Shape).Idx → M) (r : (⟨2, ![n1, K]⟩ : Shape).Idx → M) (j : (⟨2, ![n0, n1]⟩ : Shape).Idx) :
    ∑ q : D.contr.Idx, l (D.lhsIdx j q) * r (D.rhsIdx j q) = ∑ k : Fin K, l (ix2 (j 0) k) * r (ix2 (j 1) k) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 (j 1) k := funext fun a => Fin.ext (by
    match a with
    | ⟨0, _⟩ => exact hr0 _ _
    | ⟨1, _⟩ => exact h2.trans hk)
  exact congrArg₂ (· * ·) (congrArg l el) (congrArg r er)

/-- The reduced index `c` with the row `r` put back is the matrix index `(r, c)`. -/
theorem lift_cols {n k : ℕ} (h : (⟨2, ![n, k]⟩ : Shape).Reduces [0] ⟨1, ![k]⟩) (c : Fin k) (r : Fin n) :
    h.lift (ix1 c) r = ix2 r c :=
  funext fun a => Fin.ext (by match a with | ⟨0, _⟩ => rfl | ⟨1, _⟩ => rfl)

/-- The reduced index `r` with the column `c` put back is the matrix index `(r, c)`. -/
theorem lift_rows {n k : ℕ} (h : (⟨2, ![n, k]⟩ : Shape).Reduces [1] ⟨1, ![n]⟩) (r : Fin n) (c : Fin k) :
    h.lift (ix1 r) c = ix2 r c :=
  funext fun a => Fin.ext (by match a with | ⟨0, _⟩ => rfl | ⟨1, _⟩ => rfl)

/-- A lane maximum over the rows of an `[n, k]` matrix, at column `c`: the fold of max over that column. -/
theorem multiReduction_max_cols_apply {n k : ℕ} (src : FVec Ideal ⟨2, ![n, k]⟩ .f32) (acc : BitVec 32)
    (h : (⟨2, ![n, k]⟩ : Shape).Reduces [0] ⟨1, ![k]⟩) (hφ : FKind.Formats .f32)
    (hacc : acc = FKind.maximumf.neutral .f32 hφ) (c : Fin k) :
    multiReduction .maximumf [0] ⟨1, ![k]⟩ src acc h hφ hacc (ix1 c)
      = (Finset.univ : Finset (Fin n)).fold max (Ideal.ofBits .f32 acc) (fun r => src (ix2 r c)) :=
  (Ideal.multiReduction_maximumf_single src acc h hφ hacc (ix1 c)).trans
    (Finset.fold_congr fun r _ => congrArg src (lift_cols h c r))

/-- A lane maximum over the columns of an `[n, k]` matrix, at row `r`: the fold of max over that row. -/
theorem multiReduction_max_rows_apply {n k : ℕ} (src : FVec Ideal ⟨2, ![n, k]⟩ .f32) (acc : BitVec 32)
    (h : (⟨2, ![n, k]⟩ : Shape).Reduces [1] ⟨1, ![n]⟩) (hφ : FKind.Formats .f32)
    (hacc : acc = FKind.maximumf.neutral .f32 hφ) (r : Fin n) :
    multiReduction .maximumf [1] ⟨1, ![n]⟩ src acc h hφ hacc (ix1 r)
      = (Finset.univ : Finset (Fin k)).fold max (Ideal.ofBits .f32 acc) (fun c => src (ix2 r c)) :=
  (Ideal.multiReduction_maximumf_single src acc h hφ hacc (ix1 r)).trans
    (Finset.fold_congr fun c _ => congrArg src (lift_rows h r c))

end Idealize.ShloMosaic.Gram

end
-- ==== Proof.LibRowSum.lean ====
/-
  A sum along the rows of a matrix, read at an index on the extended reals: a lane reduction of an [n, k] matrix
  over its columns, into the zero accumulator, is at row r the sum over the k columns of the row's entries.
-/
import Idealize.ShloMosaic.PureOps.Ideal.Laws
import Idealize.ShloMosaic.Lib.ValueIdx

namespace Idealize.ShloMosaic.ValueIdx

open Idealize.ShloMosaic

/-- The reduced index `r` with the column `d` put back is the matrix index `(r, d)`. -/
theorem lift_rows {n k : ℕ} (h : (⟨2, ![n, k]⟩ : Shape).Reduces [1] ⟨1, ![n]⟩) (r : Fin n) (d : Fin k) :
    h.lift (ix1 r) d = ix2 r d :=
  funext fun a => Fin.ext (by match a with | ⟨0, _⟩ => rfl | ⟨1, _⟩ => rfl)

/-- A float lane sum over the columns of an `[n, k]` matrix, at row `r`, is the sum of the row's `k` entries. -/
theorem multiReduction_add_rows_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ d : Fin k, src (ix2 r d) :=
  (Ideal.multiReduction_add_single src 0x00000000#32 h hφ hacc (ix1 r)).trans
    (Finset.sum_congr rfl fun d _ => congrArg src (lift_rows h r d))

end Idealize.ShloMosaic.ValueIdx
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.TileRead.lean ====
/-
  One update of the running softmax state, read entry by entry on the extended reals.

  The query, key and value projections are matrix products of the token block with a weight matrix; the scores of
  a key tile are inner products of a query row with the tile's 512 key rows; the update takes the row maximum of
  those scores against the old maximum, rescales the old normaliser and weighted sum by exp (old - new) and adds the
  tile's exp (score - new) terms, the weighted sum through a product with the tile's value rows.
-/
import proofs.«180451_j15977278341749_2_alg».proof.Proof.Pieces
import proofs.«180451_j15977278341749_2_alg».proof.Proof.Consts
import proofs.«180451_j15977278341749_2_alg».proof.Proof.LibGram
import proofs.«180451_j15977278341749_2_alg».proof.Proof.LibRowSum
import proofs.«180451_j15977278341749_2_alg».proof.Proof.LibColumn
import proofs.«180451_j15977278341749_2_alg».proof.Proof.LibContract
import Idealize.ShloMosaic.Lib.ValueLayout

noncomputable section

open scoped BigOperators

namespace Cert.KernelIdeal.Tile

open Cert.KernelIdeal Cert.KernelIdeal.Gen
open Idealize.ShloMosaic Idealize.ShloMosaic.TcCoe Idealize.ShloMosaic.ValueIdx

/-! ## Reading a load, a product and a contraction at an index -/

/-- A load through a unit-stride rectangle reads the array at the offset plus the index, axis by axis. -/
theorem ld_unit_apply {Val : EltTy → Type} {e' : EltTy} {S : Shape} (X : S.Idx → Val e') (off size : Fin S.rank → Nat)
    (inb : ∀ a, off a + size a ≤ S.size a) (y : (Rect.unit off size inb).shape.Idx) (k : S.Idx)
    (hk : ∀ a, (k a).val = off a + (y a).val) : View.ld X (Rect.unit off size inb) y = X k := by
  show X _ = X k
  refine congrArg X (funext fun a => Fin.ext ?_)
  rw [hk a]
  show off a + 1 * (y a).val = _
  rw [Nat.one_mul]

theorem dotA_lhs0 (j : S2048x256.Idx) (q : dot_S2048x256_S256x256_S2048x256_1_0_0_1_n_n.contr.Idx) :
    (dot_S2048x256_S256x256_S2048x256_1_0_0_1_n_n.lhsIdx j q 0).val = (j 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl
theorem dotA_rhs1 (j : S2048x256.Idx) (q : dot_S2048x256_S256x256_S2048x256_1_0_0_1_n_n.contr.Idx) :
    (dot_S2048x256_S256x256_S2048x256_1_0_0_1_n_n.rhsIdx j q 1).val = (j 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

/-- The [2048, 256] · [256, 256] product into zero, at an entry: the inner product of a row with a column. -/
theorem mmA_apply (l : FVec Ideal S2048x256 .bf16) (w : FVec Ideal S256x256 .bf16) (a : Fin 2048) (e : Fin 256) :
    matmul dot_S2048x256_S256x256_S2048x256_1_0_0_1_n_n none l w (constant S2048x256 .f32 0x00000000#32) (ix2 a e)
      = ∑ d : Fin 256, l (ix2 a d) * w (ix2 d e) :=
  (Ideal.matmul_constant_zero_apply dot_S2048x256_S256x256_S2048x256_1_0_0_1_n_n none l w (ix2 a e)).trans
    (Contract2.sum_contr_eq_sum_fin dot_S2048x256_S256x256_S2048x256_1_0_0_1_n_n rfl rfl rfl rfl dotA_lhs0 dotA_rhs1
      l w (ix2 a e))

/-- The token block as a [2048, 256] matrix. -/
theorem pay4_apply (x0 : Vec Ideal S1x2048x256 .f32) (r : Fin 2048) (d : Fin 256) :
    k0_pay4 x0 (ix2 r d) = x0 (ix3 (0 : Fin 1) r d) := by
  unfold k0_pay4
  exact shapeCast_1ab_ab_apply x0 shapeCasts_S1x2048x256_S2048x256 r d

/-! ## The blocks the body loads -/

theorem slab0_apply (x1 : Vec Ideal S3x256x256 .f32) (d e : Fin 256) : slab0 x1 (ix3 (0 : Fin 1) d e) = x1 (ix3 (0 : Fin 3) d e) := by
  refine ld_unit_apply x1 _ _ _ _ _ fun a => ?_
  match a with
  | ⟨0, _⟩ => rfl
  | ⟨1, _⟩ => exact (Nat.zero_add _).symm
  | ⟨2, _⟩ => exact (Nat.zero_add _).symm
theorem slab1_apply (x1 : Vec Ideal S3x256x256 .f32) (d e : Fin 256) : slab1 x1 (ix3 (0 : Fin 1) d e) = x1 (ix3 (1 : Fin 3) d e) := by
  refine ld_unit_apply x1 _ _ _ _ _ fun a => ?_
  match a with
  | ⟨0, _⟩ => rfl
  | ⟨1, _⟩ => exact (Nat.zero_add _).symm
  | ⟨2, _⟩ => exact (Nat.zero_add _).symm
theorem slab2_apply (x1 : Vec Ideal S3x256x256 .f32) (d e : Fin 256) : slab2 x1 (ix3 (0 : Fin 1) d e) = x1 (ix3 (2 : Fin 3) d e) := by
  refine ld_unit_apply x1 _ _ _ _ _ fun a => ?_
  match a with
  | ⟨0, _⟩ => rfl
  | ⟨1, _⟩ => exact (Nat.zero_add _).symm
  | ⟨2, _⟩ => exact (Nat.zero_add _).symm

/-- Row `u` of the point's key tile is row `512 · kv + u` of the projection (`kv` the point's second coordinate). -/
theorem tile_apply (i : grid0.Coords) (w : Vec Ideal S2048x256 .bf16) (u : Fin 512) (e : Fin 256) (t : Fin 2048)
    (ht : t.val = 512 * (i 1).val + u.val) : tile i w (ix2 u e) = w (ix2 t e) := by
  have ho : ∀ a, k0_off1 i a = (![512 * (i 1).val, 0] : Fin 2 → Nat) a := fun a => congrFun (k0_off1_eq i) a
  refine ld_unit_apply w _ _ _ _ _ fun a => ?_
  match a with
  | ⟨0, _⟩ => exact ht.trans (congrArg (· + u.val) (ho 0).symm)
  | ⟨1, _⟩ => exact ((Nat.zero_add _).symm).trans (congrArg (· + e.val) (ho 1).symm)

/-! ## The three projections -/

/-- The query projection: tokens times the scaled weights, times the row's mask. -/
theorem pay5_apply (x0 : Vec Ideal S1x2048x256 .f32) (w : Vec Ideal S1x256x256 .f32) (x2 : Vec Ideal S1x2048x1 .f32)
    (r : Fin 2048) (e : Fin 256) :
    k0_pay5 x0 w x2 (ix2 r e)
      = (∑ d : Fin 256, x0 (ix3 (0 : Fin 1) r d) * (w (ix3 (0 : Fin 1) d e) * Ideal.ofBits .f32 0x3E000000#32))
          * x2 (ix3 (0 : Fin 1) r (0 : Fin 1)) := by
  unfold k0_pay5
  rw [shapeCast_self]
  show matmul dot_S2048x256_S256x256_S2048x256_1_0_0_1_n_n none (k0_pay4 x0) _ (constant S2048x256 .f32 0x00000000#32) (ix2 r e)
      * broadcastTo S2048x256 (shapeCast S2048x1 x2 shapeCasts_S1x2048x1_S2048x1) broadcasts_S2048x1_S2048x256 (ix2 r e) = _
  rw [mmA_apply, broadcastTo_a1_ab_apply, shapeCast_1ab_ab_apply]
  congr 1
  refine Finset.sum_congr rfl fun d _ => ?_
  rw [pay4_apply]
  exact congrArg (_ * ·) (congrArg (· * _) (shapeCast_1ab_ab_apply w shapeCasts_S1x256x256_S256x256 d e))

theorem pay6_apply (x0 : Vec Ideal S1x2048x256 .f32) (w : Vec Ideal S1x256x256 .f32) (r : Fin 2048) (e : Fin 256) :
    k0_pay6 x0 w (ix2 r e) = ∑ d : Fin 256, x0 (ix3 (0 : Fin 1) r d) * w (ix3 (0 : Fin 1) d e) := by
  unfold k0_pay6
  rw [shapeCast_self]
  refine (mmA_apply _ _ r e).trans (Finset.sum_congr rfl fun d _ => ?_)
  rw [pay4_apply]
  exact congrArg _ (shapeCast_1ab_ab_apply w shapeCasts_S1x256x256_S256x256 d e)

theorem pay7_apply (x0 : Vec Ideal S1x2048x256 .f32) (w : Vec Ideal S1x256x256 .f32) (r : Fin 2048) (e : Fin 256) :
    k0_pay7 x0 w (ix2 r e) = ∑ d : Fin 256, x0 (ix3 (0 : Fin 1) r d) * w (ix3 (0 : Fin 1) d e) := by
  unfold k0_pay7
  rw [shapeCast_self]
  refine (mmA_apply _ _ r e).trans (Finset.sum_congr rfl fun d _ => ?_)
  rw [pay4_apply]
  exact congrArg _ (shapeCast_1ab_ab_apply w shapeCasts_S1x256x256_S256x256 d e)

/-! ## The reset state -/

theorem pay8_apply (r : Fin 2048) : (k0_pay8 : FVec Ideal S2048x1 .f32) (ix2 r (0 : Fin 1)) = (⊥ : EReal) := by
  unfold k0_pay8
  rw [shapeCast_self]
  exact Cert.Consts.ofBits_neg_inf
theorem pay9_apply (r : Fin 2048) : (k0_pay9 : FVec Ideal S2048x1 .f32) (ix2 r (0 : Fin 1)) = (0 : EReal) := by
  unfold k0_pay9
  rw [shapeCast_self]
  exact Cert.Consts.ofBits_zero
theorem pay10_apply (r : Fin 2048) (e : Fin 256) : (k0_pay10 : FVec Ideal S2048x256 .f32) (ix2 r e) = (0 : EReal) := by
  unfold k0_pay10
  rw [shapeCast_self]
  exact Cert.Consts.ofBits_zero

/-! ## One update -/

/-- The score of query row `r` against row `u` of a key tile. -/
def sc (kt : Vec Ideal S512x256 .bf16) (q : Vec Ideal S2048x256 .bf16) (r : Fin 2048) (u : Fin 512) : EReal :=
  ∑ e : Fin 256, q (ix2 r e) * kt (ix2 u e)

theorem dotB_lhs0 (j : S2048x512.Idx) (q : dot_S2048x256_S256x512_S2048x512_1_0_0_1_n_n.contr.Idx) :
    (dot_S2048x256_S256x512_S2048x512_1_0_0_1_n_n.lhsIdx j q 0).val = (j 0).val := by
  unfold DotDims.lhsIdx
  rw [dif_neg (show ¬(0 : Fin S2048x256.rank) ∈ dot_S2048x256_S256x512_S2048x512_1_0_0_1_n_n.lhsBatch by decide),
    dif_pos (show (0 : Fin S2048x256.rank) ∈ dot_S2048x256_S256x512_S2048x512_1_0_0_1_n_n.lhsNonContracting by decide)]
  rfl
theorem dotB_rhs1 (j : S2048x512.Idx) (q : dot_S2048x256_S256x512_S2048x512_1_0_0_1_n_n.contr.Idx) :
    (dot_S2048x256_S256x512_S2048x512_1_0_0_1_n_n.rhsIdx j q 1).val = (j 1).val := by
  unfold DotDims.rhsIdx
  rw [dif_neg (show ¬(1 : Fin S256x512.rank) ∈ dot_S2048x256_S256x512_S2048x512_1_0_0_1_n_n.rhsBatch by decide),
    dif_pos (show (1 : Fin S256x512.rank) ∈ dot_S2048x256_S256x512_S2048x512_1_0_0_1_n_n.rhsNonContracting by decide)]
  rfl

/-- The [2048, 256] · [256, 512] product into zero, at an entry. -/
theorem mmB_apply (l : FVec Ideal S2048x256 .bf16) (w : FVec Ideal S256x512 .bf16) (a : Fin 2048) (u : Fin 512) :
    matmul dot_S2048x256_S256x512_S2048x512_1_0_0_1_n_n none l w (constant S2048x512 .f32 0x00000000#32) (ix2 a u)
      = ∑ d : Fin 256, l (ix2 a d) * w (ix2 d u) :=
  (Ideal.matmul_constant_zero_apply dot_S2048x256_S256x512_S2048x512_1_0_0_1_n_n none l w (ix2 a u)).trans
    (Contract2.sum_contr_eq_sum_fin dot_S2048x256_S256x512_S2048x512_1_0_0_1_n_n rfl rfl rfl rfl dotB_lhs0 dotB_rhs1 l w (ix2 a u))

theorem dotC_lhs0 (j : S2048x256.Idx) (q : dot_S2048x512_S512x256_S2048x256_1_0_0_1_n_n.contr.Idx) :
    (dot_S2048x512_S512x256_S2048x256_1_0_0_1_n_n.lhsIdx j q 0).val = (j 0).val := by
  unfold DotDims.lhsIdx
  rw [dif_neg (show ¬(0 : Fin S2048x512.rank) ∈ dot_S2048x512_S512x256_S2048x256_1_0_0_1_n_n.lhsBatch by decide),
    dif_pos (show (0 : Fin S2048x512.rank) ∈ dot_S2048x512_S512x256_S2048x256_1_0_0_1_n_n.lhsNonContracting by decide)]
  rfl
theorem dotC_rhs1 (j : S2048x256.Idx) (q : dot_S2048x512_S512x256_S2048x256_1_0_0_1_n_n.contr.Idx) :
    (dot_S2048x512_S512x256_S2048x256_1_0_0_1_n_n.rhsIdx j q 1).val = (j 1).val := by
  unfold DotDims.rhsIdx
  rw [dif_neg (show ¬(1 : Fin S512x256.rank) ∈ dot_S2048x512_S512x256_S2048x256_1_0_0_1_n_n.rhsBatch by decide),
    dif_pos (show (1 : Fin S512x256.rank) ∈ dot_S2048x512_S512x256_S2048x256_1_0_0_1_n_n.rhsNonContracting by decide)]
  rfl

/-- The [2048, 512] · [512, 256] product into zero, at an entry. -/
theorem mmC_apply (l : FVec Ideal S2048x512 .bf16) (w : FVec Ideal S512x256 .bf16) (a : Fin 2048) (e : Fin 256) :
    matmul dot_S2048x512_S512x256_S2048x256_1_0_0_1_n_n none l w (constant S2048x256 .f32 0x00000000#32) (ix2 a e)
      = ∑ u : Fin 512, l (ix2 a u) * w (ix2 u e) :=
  (Ideal.matmul_constant_zero_apply dot_S2048x512_S512x256_S2048x256_1_0_0_1_n_n none l w (ix2 a e)).trans
    (Contract2.sum_contr_eq_sum_fin dot_S2048x512_S512x256_S2048x256_1_0_0_1_n_n rfl rfl rfl rfl dotC_lhs0 dotC_rhs1 l w (ix2 a e))

/-- The scores of the tile: query rows against the transposed key rows. -/
theorem pay11_apply (kt : Vec Ideal S512x256 .bf16) (q : Vec Ideal S2048x256 .bf16) (r : Fin 2048) (u : Fin 512) :
    k0_pay11 kt q (ix2 r u) = sc kt q r u := by
  unfold k0_pay11
  refine (mmB_apply _ _ r u).trans (Finset.sum_congr rfl fun e _ => ?_)
  exact congrArg (_ * ·) (transpose_ix2_apply kt transposes_S512x256_p1_0_S256x512 e u)

/-- The new maximum of row `r`: the old one against the largest score of the tile. -/
theorem pay12_apply (kt : Vec Ideal S512x256 .bf16) (q : Vec Ideal S2048x256 .bf16) (mx : Vec Ideal S2048x1 .f32) (r : Fin 2048) :
    k0_pay12 kt q mx (ix2 r (0 : Fin 1))
      = max (mx (ix2 r (0 : Fin 1))) ((Finset.univ : Finset (Fin 512)).fold max (⊥ : EReal) (fun u => sc kt q r u)) := by
  unfold k0_pay12
  refine congrArg (max (mx (ix2 r (0 : Fin 1)))) ?_
  refine (shapeCast_a_a1_apply _ shapeCasts_S2048_S2048x1 r (0 : Fin 1)).trans ?_
  refine (Gram.multiReduction_max_rows_apply (k0_pay11 kt q) 0xFF800000#32 reduces_S2048x512_S2048 (.inl rfl) rfl r).trans ?_
  rw [Cert.Consts.ofBits_neg_inf]
  exact Finset.fold_congr fun u _ => pay11_apply kt q r u

theorem newM_eq (kt : Vec Ideal S512x256 .bf16) (q : Vec Ideal S2048x256 .bf16) (mx : Vec Ideal S2048x1 .f32) :
    newM kt q mx = k0_pay12 kt q mx := by
  unfold newM k0_pay2
  rw [shapeCast_self]

/-- The tile's exponentials: exp (score - new maximum). -/
theorem pay14_apply (kt : Vec Ideal S512x256 .bf16) (q : Vec Ideal S2048x256 .bf16) (mx : Vec Ideal S2048x1 .f32)
    (r : Fin 2048) (u : Fin 512) :
    k0_pay14 kt q mx (ix2 r u) = Ideal.exp (sc kt q r u - k0_pay12 kt q mx (ix2 r (0 : Fin 1))) := by
  unfold k0_pay14
  show Ideal.exp (k0_pay11 kt q (ix2 r u)
    - broadcastTo S2048x512 (k0_pay12 kt q mx) broadcasts_S2048x1_S2048x512 (ix2 r u)) = _
  rw [pay11_apply, broadcastTo_a1_ab_apply]

theorem newM_apply (kt : Vec Ideal S512x256 .bf16) (q : Vec Ideal S2048x256 .bf16) (mx : Vec Ideal S2048x1 .f32) (r : Fin 2048) :
    newM kt q mx (ix2 r (0 : Fin 1))
      = max (mx (ix2 r (0 : Fin 1))) ((Finset.univ : Finset (Fin 512)).fold max (⊥ : EReal) (fun u => sc kt q r u)) := by
  rw [newM_eq]
  exact pay12_apply kt q mx r

theorem newL_apply (kt : Vec Ideal S512x256 .bf16) (q : Vec Ideal S2048x256 .bf16) (mx l : Vec Ideal S2048x1 .f32) (r : Fin 2048) :
    newL kt q mx l (ix2 r (0 : Fin 1))
      = Ideal.exp (mx (ix2 r (0 : Fin 1)) - newM kt q mx (ix2 r (0 : Fin 1))) * l (ix2 r (0 : Fin 1))
          + ∑ u : Fin 512, Ideal.exp (sc kt q r u - newM kt q mx (ix2 r (0 : Fin 1))) := by
  rw [newM_eq]
  unfold newL k0_pay15
  rw [shapeCast_self]
  refine congrArg₂ (· + ·) rfl ?_
  refine (shapeCast_a_a1_apply _ shapeCasts_S2048_S2048x1 r (0 : Fin 1)).trans ?_
  refine (multiReduction_add_rows_apply (k0_pay14 kt q mx) reduces_S2048x512_S2048 (.inl rfl) rfl r).trans ?_
  exact Finset.sum_congr rfl fun u _ => pay14_apply kt q mx r u

theorem newAcc_apply (kt vt : Vec Ideal S512x256 .bf16) (q : Vec Ideal S2048x256 .bf16) (mx : Vec Ideal S2048x1 .f32)
    (acc : Vec Ideal S2048x256 .f32) (r : Fin 2048) (e : Fin 256) :
    newAcc kt vt q mx acc (ix2 r e)
      = Ideal.exp (mx (ix2 r (0 : Fin 1)) - newM kt q mx (ix2 r (0 : Fin 1))) * acc (ix2 r e)
          + ∑ u : Fin 512, Ideal.exp (sc kt q r u - newM kt q mx (ix2 r (0 : Fin 1))) * vt (ix2 u e) := by
  rw [newM_eq]
  unfold newAcc k0_pay1
  rw [shapeCast_self]
  refine congrArg₂ (· + ·) ?_ ?_
  · unfold k0_pay17
    show broadcastTo S2048x256 (k0_pay13 kt q mx mx) broadcasts_S2048x1_S2048x256 (ix2 r e) * acc (ix2 r e) = _
    rw [broadcastTo_a1_ab_apply]
    rfl
  · unfold k0_pay16
    refine (mmC_apply _ _ r e).trans (Finset.sum_congr rfl fun u _ => ?_)
    exact congrArg (· * _) (pay14_apply kt q mx r u)

/-- The output block: the weighted sum over the normaliser, row by row. -/
theorem pay3_apply (a : Vec Ideal S2048x256 .f32) (l : Vec Ideal S2048x1 .f32) (r : Fin 2048) (e : Fin 256) :
    k0_pay3 a l (ix3 (0 : Fin 1) r e) = Ideal.div (a (ix2 r e)) (l (ix2 r (0 : Fin 1))) := by
  unfold k0_pay3
  refine (shapeCast_ab_1ab_apply _ shapeCasts_S2048x256_S1x2048x256 (0 : Fin 1) r e).trans ?_
  show Ideal.div (a (ix2 r e)) (broadcastTo S2048x256 l broadcasts_S2048x1_S2048x256 (ix2 r e)) = _
  rw [broadcastTo_a1_ab_apply]

end Cert.KernelIdeal.Tile

end
-- ==== Proof.OnlineSoftmax.lean ====
/-
  The running-maximum ("online") evaluation of a softmax-weighted average, tile by tile, and the plain one.

  2048 key positions are visited in 4 tiles of 512. After each tile the running state is a maximum M, a
  normaliser L = ∑ exp (S t - M) and a weighted sum A = ∑ exp (S t - M) · v t over the positions seen so far;
  a new tile rescales the old sums by exp (M_old - M_new). Dividing A by L at the end gives the softmax average,
  which does not depend on the subtracted constant. The first block of lemmas is about plain reals; the second
  reads one update step on the extended reals, where the state starts at (-∞, 0, 0).
-/
import Idealize.ShloMosaic.PureOps.Ideal

noncomputable section

open scoped BigOperators

namespace Cert.OnlineSoftmax

open Idealize.ShloMosaic

/-! ## Tiles of key positions -/

/-- Key position `u` of tile `j` among the 2048 positions (tiles 0..3 are the ones used). -/
def tix (j : ℕ) (u : Fin 512) : Fin 2048 := ⟨(512 * j + u.val) % 2048, Nat.mod_lt _ (by norm_num)⟩

theorem tix_val (j : ℕ) (hj : j < 4) (u : Fin 512) : (tix j u).val = 512 * j + u.val := by
  have hu := u.isLt
  show (512 * j + u.val) % 2048 = 512 * j + u.val
  apply Nat.mod_eq_of_lt
  omega

/-- The sum of `g` over the positions of tiles `0 … j`. -/
def part (g : Fin 2048 → ℝ) (j : ℕ) : ℝ := ∑ j' ∈ Finset.range (j + 1), ∑ u : Fin 512, g (tix j' u)

theorem part_zero (g : Fin 2048 → ℝ) : part g 0 = ∑ u : Fin 512, g (tix 0 u) := by
  unfold part
  rw [zero_add, Finset.sum_range_one]

theorem part_succ (g : Fin 2048 → ℝ) (j : ℕ) : part g (j + 1) = part g j + ∑ u : Fin 512, g (tix (j + 1) u) := by
  unfold part
  rw [Finset.sum_range_succ]

/-- Four tiles are all the positions. -/
theorem part_three (g : Fin 2048 → ℝ) : part g 3 = ∑ t : Fin 2048, g t := by
  -- positions are (tile, offset) pairs: t = offset + 512 * tile
  have e : (∑ t : Fin 2048, g t) = ∑ p : Fin 4 × Fin 512, g (finProdFinEquiv p) :=
    (Equiv.sum_comp (finProdFinEquiv : Fin 4 × Fin 512 ≃ Fin (4 * 512)) g).symm
  have hp : part g 3 = ∑ j' ∈ Finset.range 4, ∑ u : Fin 512, g (tix j' u) := rfl
  rw [e, Fintype.sum_prod_type, hp, Finset.sum_range]
  refine Finset.sum_congr rfl (fun j _ => Finset.sum_congr rfl (fun u _ => ?_))
  congr 1
  apply Fin.ext
  rw [tix_val _ j.isLt]
  simp [finProdFinEquiv]
  ring

theorem part_exp_pos (S : Fin 2048 → ℝ) (M : ℝ) (j : ℕ) : 0 < part (fun t => Real.exp (S t - M)) j := by
  unfold part
  refine Finset.sum_pos (fun i _ => ?_) ⟨0, Finset.mem_range.2 (Nat.succ_pos _)⟩
  exact Finset.sum_pos (fun u _ => Real.exp_pos _) Finset.univ_nonempty

/-! ## The update step and the result, over the reals -/

/-- A constant factor goes inside the tile sums. -/
theorem mul_part (c : ℝ) (g : Fin 2048 → ℝ) (j : ℕ) : c * part g j = part (fun t => c * g t) j := by
  unfold part
  rw [Finset.mul_sum]
  refine Finset.sum_congr rfl (fun j' _ => ?_)
  rw [Finset.mul_sum]

/-- Rescaling the normaliser of tiles `0 … j` from maximum `Mp` to `Mn` and adding tile `j + 1`. -/
theorem shift_part_l (S : Fin 2048 → ℝ) (Mp Mn : ℝ) (j : ℕ) :
    Real.exp (Mp - Mn) * part (fun t => Real.exp (S t - Mp)) j + ∑ u : Fin 512, Real.exp (S (tix (j + 1) u) - Mn)
      = part (fun t => Real.exp (S t - Mn)) (j + 1) := by
  have h : (fun t => Real.exp (Mp - Mn) * Real.exp (S t - Mp)) = fun t => Real.exp (S t - Mn) := by
    funext t
    rw [← Real.exp_add]
    congr 1
    ring
  rw [part_succ, mul_part, h]

/-- The same for the weighted sum. -/
theorem shift_part_acc (S w : Fin 2048 → ℝ) (Mp Mn : ℝ) (j : ℕ) :
    Real.exp (Mp - Mn) * part (fun t => Real.exp (S t - Mp) * w t) j
        + ∑ u : Fin 512, Real.exp (S (tix (j + 1) u) - Mn) * w (tix (j + 1) u)
      = part (fun t => Real.exp (S t - Mn) * w t) (j + 1) := by
  have h : (fun t => Real.exp (Mp - Mn) * (Real.exp (S t - Mp) * w t)) = fun t => Real.exp (S t - Mn) * w t := by
    funext t
    rw [← mul_assoc, ← Real.exp_add]
    congr 2
    ring
  rw [part_succ, mul_part, h]

/-- Subtracting a constant from every score multiplies both sums by the same positive factor. -/
theorem quot_shift (S v : Fin 2048 → ℝ) (M : ℝ) :
    (∑ t, Real.exp (S t - M) * v t) / (∑ t, Real.exp (S t - M))
      = (∑ t, Real.exp (S t) * v t) / (∑ t, Real.exp (S t)) := by
  have hc : ∀ t, Real.exp (S t - M) = Real.exp (-M) * Real.exp (S t) := fun t => by
    rw [← Real.exp_add]
    congr 1
    ring
  simp only [hc, mul_assoc]
  rw [← Finset.mul_sum, ← Finset.mul_sum]
  exact mul_div_mul_left _ _ (Real.exp_pos _).ne'

/-- The quotient of the two sums after the last tile is the softmax average, whatever constant was subtracted. -/
theorem online_final (S v : Fin 2048 → ℝ) (M : ℝ) :
    part (fun t => Real.exp (S t - M) * v t) 3 / part (fun t => Real.exp (S t - M)) 3
      = (∑ t, Real.exp (S t) * v t) / (∑ t, Real.exp (S t)) := by
  rw [part_three, part_three]
  exact quot_shift S v M

/-- The plain evaluation: normalised weights first, then the average. -/
theorem softmax_plain (S v : Fin 2048 → ℝ) (M : ℝ) :
    ∑ t, (Real.exp (S t - M) / ∑ t', Real.exp (S t' - M)) * v t
      = (∑ t, Real.exp (S t) * v t) / (∑ t, Real.exp (S t)) := by
  rw [← quot_shift S v M, Finset.sum_div]
  refine Finset.sum_congr rfl (fun t _ => ?_)
  rw [div_mul_eq_mul_div]

/-- A scale and a row mask folded into the query projection come out of the inner product. -/
theorem scale_mask_sum {ι κ : Type*} [Fintype ι] [Fintype κ] (x : κ → ℝ) (w : κ → ι → ℝ) (k : ι → ℝ) (c μ : ℝ) :
    ∑ e, ((∑ d, x d * (w d e * c)) * μ) * k e = ((∑ e, (∑ d, x d * w d e) * k e) * c) * μ := by
  rw [Finset.sum_mul, Finset.sum_mul]
  refine Finset.sum_congr rfl (fun e _ => ?_)
  have h : ∑ d, x d * (w d e * c) = (∑ d, x d * w d e) * c := by
    rw [Finset.sum_mul]
    refine Finset.sum_congr rfl (fun d _ => ?_)
    ring
  rw [h]
  ring

/-! ## One step on the extended reals -/

theorem coe_sum {ι : Type*} (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A maximum of finitely many reals (at least one) with anything but +∞ is a real. -/
theorem fold_max_real {n : ℕ} (σ : Fin (n + 1) → ℝ) (mp : EReal) (hmp : mp ≠ ⊤) :
    ∃ Mn : ℝ, max mp ((Finset.univ : Finset (Fin (n + 1))).fold max (⊥ : EReal) (fun u => (σ u : EReal))) = (Mn : EReal) := by
  set F : EReal := (Finset.univ : Finset (Fin (n + 1))).fold max (⊥ : EReal) (fun u => (σ u : EReal)) with hF
  -- the fold is below +∞ because every entry is, and above the entry at 0
  have h1 : F < ⊤ := (Finset.fold_max_lt _).2 ⟨bot_lt_top, fun x _ => EReal.coe_lt_top _⟩
  have h2 : ((σ 0 : ℝ) : EReal) ≤ F := (Finset.le_fold_max _).2 (Or.inr ⟨0, Finset.mem_univ _, le_rfl⟩)
  have h3 : max mp F < ⊤ := max_lt (lt_top_iff_ne_top.2 hmp) h1
  have h4 : (⊥ : EReal) < max mp F := lt_of_lt_of_le (EReal.bot_lt_coe _) (le_trans h2 (le_max_right _ _))
  exact ⟨(max mp F).toReal, (EReal.coe_toReal h3.ne h4.ne').symm⟩

/-- First tile, normaliser: from the state (-∞, 0). -/
theorem first_l {n : ℕ} (σ : Fin n → ℝ) (Mn : ℝ) :
    Ideal.exp ((⊥ : EReal) - (Mn : EReal)) * (0 : EReal) + ∑ u : Fin n, Ideal.exp ((σ u : EReal) - (Mn : EReal))
      = ((∑ u : Fin n, Real.exp (σ u - Mn) : ℝ) : EReal) := by
  have h : (⊥ : EReal) - (Mn : EReal) = ⊥ := EReal.bot_sub _
  rw [h, Ideal.exp_bot, zero_mul, zero_add, coe_sum]
  refine Finset.sum_congr rfl (fun u _ => ?_)
  rw [← EReal.coe_sub, Ideal.exp_coe]

/-- First tile, weighted sum. -/
theorem first_acc {n : ℕ} (σ ν : Fin n → ℝ) (Mn : ℝ) :
    Ideal.exp ((⊥ : EReal) - (Mn : EReal)) * (0 : EReal)
        + ∑ u : Fin n, Ideal.exp ((σ u : EReal) - (Mn : EReal)) * (ν u : EReal)
      = ((∑ u : Fin n, Real.exp (σ u - Mn) * ν u : ℝ) : EReal) := by
  have h : (⊥ : EReal) - (Mn : EReal) = ⊥ := EReal.bot_sub _
  rw [h, Ideal.exp_bot, zero_mul, zero_add, coe_sum]
  refine Finset.sum_congr rfl (fun u _ => ?_)
  rw [← EReal.coe_sub, Ideal.exp_coe, ← EReal.coe_mul]

/-- A later tile, normaliser: from a real state. -/
theorem next_l {n : ℕ} (Mp Lp : ℝ) (σ : Fin n → ℝ) (Mn : ℝ) :
    Ideal.exp ((Mp : EReal) - (Mn : EReal)) * (Lp : EReal) + ∑ u : Fin n, Ideal.exp ((σ u : EReal) - (Mn : EReal))
      = ((Real.exp (Mp - Mn) * Lp + ∑ u : Fin n, Real.exp (σ u - Mn) : ℝ) : EReal) := by
  rw [← EReal.coe_sub, Ideal.exp_coe, ← EReal.coe_mul, EReal.coe_add, coe_sum]
  congr 1

/-- A later tile, weighted sum. -/
theorem next_acc {n : ℕ} (Mp Ap : ℝ) (σ ν : Fin n → ℝ) (Mn : ℝ) :
    Ideal.exp ((Mp : EReal) - (Mn : EReal)) * (Ap : EReal)
        + ∑ u : Fin n, Ideal.exp ((σ u : EReal) - (Mn : EReal)) * (ν u : EReal)
      = ((Real.exp (Mp - Mn) * Ap + ∑ u : Fin n, Real.exp (σ u - Mn) * ν u : ℝ) : EReal) := by
  rw [← EReal.coe_sub, Ideal.exp_coe, ← EReal.coe_mul, EReal.coe_add, coe_sum]
  congr 1

/-- The last division: a real over a positive real. -/
theorem div_coe_pos (a l : ℝ) (hl : 0 < l) : Ideal.div (a : EReal) (l : EReal) = ((a / l : ℝ) : EReal) := by
  rw [Ideal.div_coe hl.ne', ← EReal.coe_mul, mul_one_div]

end Cert.OnlineSoftmax

end
-- ==== Proof.Update.lean ====
/-
  One update of the running softmax state over real-valued projections.

  When the query rows and the tile's key and value rows hold real numbers, the scores are real, the new running
  maximum is a real number M, and the new normaliser and weighted sum are the old ones rescaled by exp (M_old - M)
  plus the tile's terms exp (score - M) — from the reset state (-∞, 0, 0) just the tile's terms.
-/
import proofs.«180451_j15977278341749_2_alg».proof.Proof.TileRead
import proofs.«180451_j15977278341749_2_alg».proof.Proof.OnlineSoftmax

noncomputable section

open scoped BigOperators

namespace Cert.KernelIdeal.Tile

open Cert.KernelIdeal Cert.KernelIdeal.Gen
open Idealize.ShloMosaic Idealize.ShloMosaic.TcCoe Idealize.ShloMosaic.ValueIdx

variable (kt vt : Vec Ideal S512x256 .bf16) (q : Vec Ideal S2048x256 .bf16)
  (Qr : Fin 2048 → Fin 256 → ℝ) (Kt Vt : Fin 512 → Fin 256 → ℝ)

/-- The score of real rows is the real inner product. -/
theorem sc_coe (hq : ∀ r e, q (ix2 r e) = ((Qr r e : ℝ) : EReal)) (hk : ∀ u e, kt (ix2 u e) = ((Kt u e : ℝ) : EReal))
    (r : Fin 2048) (u : Fin 512) : sc kt q r u = ((∑ e : Fin 256, Qr r e * Kt u e : ℝ) : EReal) := by
  unfold sc
  rw [Cert.OnlineSoftmax.coe_sum]
  refine Finset.sum_congr rfl (fun e _ => ?_)
  rw [hq, hk, EReal.coe_mul]

/-- The first update of a batch, from the reset state. -/
theorem update_first (hq : ∀ r e, q (ix2 r e) = ((Qr r e : ℝ) : EReal)) (hk : ∀ u e, kt (ix2 u e) = ((Kt u e : ℝ) : EReal))
    (hv : ∀ u e, vt (ix2 u e) = ((Vt u e : ℝ) : EReal))
    (mx l : Vec Ideal S2048x1 .f32) (acc : Vec Ideal S2048x256 .f32)
    (hm : ∀ r, mx (ix2 r (0 : Fin 1)) = (⊥ : EReal)) (hl : ∀ r, l (ix2 r (0 : Fin 1)) = (0 : EReal))
    (ha : ∀ r e, acc (ix2 r e) = (0 : EReal)) (r : Fin 2048) :
    ∃ M : ℝ, newM kt q mx (ix2 r (0 : Fin 1)) = (M : EReal)
      ∧ newL kt q mx l (ix2 r (0 : Fin 1)) = ((∑ u : Fin 512, Real.exp ((∑ e : Fin 256, Qr r e * Kt u e) - M) : ℝ) : EReal)
      ∧ ∀ e : Fin 256, newAcc kt vt q mx acc (ix2 r e)
          = ((∑ u : Fin 512, Real.exp ((∑ e' : Fin 256, Qr r e' * Kt u e') - M) * Vt u e : ℝ) : EReal) := by
  have hs : ∀ u, sc kt q r u = ((∑ e : Fin 256, Qr r e * Kt u e : ℝ) : EReal) :=
    fun u => sc_coe kt q Qr Kt hq hk r u
  obtain ⟨M, hM⟩ := Cert.OnlineSoftmax.fold_max_real (n := 511)
    (σ := fun u => ∑ e : Fin 256, Qr r e * Kt u e) (mp := (⊥ : EReal)) (by simp)
  have hnm : newM kt q mx (ix2 r (0 : Fin 1)) = (M : EReal) := by
    rw [newM_apply, hm]
    simp only [hs]
    exact hM
  refine ⟨M, hnm, ?_, ?_⟩
  · rw [newL_apply, hnm, hm, hl]
    simp only [hs]
    exact Cert.OnlineSoftmax.first_l _ M
  · intro e
    rw [newAcc_apply, hnm, hm, ha]
    simp only [hs, hv]
    exact Cert.OnlineSoftmax.first_acc _ _ M

/-- A later update, from a real state (Mp, Lp, Ap) of row `r`. -/
theorem update_next (hq : ∀ r e, q (ix2 r e) = ((Qr r e : ℝ) : EReal)) (hk : ∀ u e, kt (ix2 u e) = ((Kt u e : ℝ) : EReal))
    (hv : ∀ u e, vt (ix2 u e) = ((Vt u e : ℝ) : EReal))
    (mx l : Vec Ideal S2048x1 .f32) (acc : Vec Ideal S2048x256 .f32) (r : Fin 2048)
    (Mp Lp : ℝ) (Ap : Fin 256 → ℝ)
    (hm : mx (ix2 r (0 : Fin 1)) = ((Mp : ℝ) : EReal)) (hl : l (ix2 r (0 : Fin 1)) = ((Lp : ℝ) : EReal))
    (ha : ∀ e, acc (ix2 r e) = ((Ap e : ℝ) : EReal)) :
    ∃ M : ℝ, newM kt q mx (ix2 r (0 : Fin 1)) = (M : EReal)
      ∧ newL kt q mx l (ix2 r (0 : Fin 1))
          = ((Real.exp (Mp - M) * Lp + ∑ u : Fin 512, Real.exp ((∑ e : Fin 256, Qr r e * Kt u e) - M) : ℝ) : EReal)
      ∧ ∀ e : Fin 256, newAcc kt vt q mx acc (ix2 r e)
          = ((Real.exp (Mp - M) * Ap e + ∑ u : Fin 512, Real.exp ((∑ e' : Fin 256, Qr r e' * Kt u e') - M) * Vt u e : ℝ) : EReal) := by
  have hs : ∀ u, sc kt q r u = ((∑ e : Fin 256, Qr r e * Kt u e : ℝ) : EReal) :=
    fun u => sc_coe kt q Qr Kt hq hk r u
  obtain ⟨M, hM⟩ := Cert.OnlineSoftmax.fold_max_real (n := 511)
    (σ := fun u => ∑ e : Fin 256, Qr r e * Kt u e) (mp := ((Mp : ℝ) : EReal)) (EReal.coe_ne_top _)
  have hnm : newM kt q mx (ix2 r (0 : Fin 1)) = (M : EReal) := by
    rw [newM_apply, hm]
    simp only [hs]
    exact hM
  refine ⟨M, hnm, ?_, ?_⟩
  · rw [newL_apply, hnm, hm, hl]
    simp only [hs]
    exact Cert.OnlineSoftmax.next_l Mp Lp _ M
  · intro e
    rw [newAcc_apply, hnm, hm, ha]
    simp only [hs, hv]
    exact Cert.OnlineSoftmax.next_acc Mp (Ap e) _ _ M

end Cert.KernelIdeal.Tile

end
-- ==== Proof.Steps.lean ====
/-
  The kernel's running state after each key tile, over real arguments.

  For a batch b the body keeps Q (the query projection with the scale 1/8 and the row mask folded in), K and V (the
  key and value projections). With s r t = ∑ e, Q r e · K t e — which is the specification's masked, scaled score — the
  state of row r after tiles 0 … j is a real maximum M, the normaliser ∑ exp (s r t - M) and the weighted sums
  ∑ exp (s r t - M) · V t e over the positions t of those tiles. The first tile establishes this from the reset state,
  every later tile preserves it.
-/
import proofs.«180451_j15977278341749_2_alg».proof.Proof.Update
import proofs.«180451_j15977278341749_2_alg».proof.Proof.AttnSpec
import proofs.«180451_j15977278341749_2_alg».proof.Proof.OnlineSoftmax
import proofs.«180451_j15977278341749_2_alg».proof.Proof.Consts

noncomputable section

open scoped BigOperators

namespace Cert.KernelIdeal.Attention

open Cert.KernelIdeal Cert.KernelIdeal.Gen Cert.KernelIdeal.Tile
open Idealize.ShloMosaic Idealize.ShloMosaic.TcCoe Idealize.ShloMosaic.ValueIdx
open Cert.OnlineSoftmax (tix part)

variable (X : Cert.Attn.SX.Idx → ℝ) (W : Cert.Attn.SW.Idx → ℝ) (μ : Cert.Attn.SM.Idx → ℝ)

/-- The query projection as the kernel keeps it: scale 1/8 folded into the weights, the row's mask multiplied in. -/
def Qp (b : Fin 8) (r : Fin 2048) (e : Fin 256) : ℝ :=
  (∑ d : Fin 256, X (ix3 b r d) * (W (ix3 (0 : Fin 3) d e) * (1 / 8 : ℝ))) * μ (ix2 b r)

/-- The kernel's score of query row `r` against key row `t`. -/
def S (b : Fin 8) (r t : Fin 2048) : ℝ := ∑ e : Fin 256, Qp X W μ b r e * Cert.Attn.proj X W 1 b t e

/-- It is the specification's score: the scale and the mask come out of the inner product. -/
theorem S_eq_score (b : Fin 8) (r t : Fin 2048) : S X W μ b r t = Cert.Attn.score X W μ b r t :=
  Cert.OnlineSoftmax.scale_mask_sum (fun d => X (ix3 b r d)) (fun d e => W (ix3 (0 : Fin 3) d e))
    (fun e => Cert.Attn.proj X W 1 b t e) (1 / 8 : ℝ) (μ (ix2 b r))

section blocks

variable (x0 : Vec Ideal S1x2048x256 .f32) (w : Vec Ideal S1x256x256 .f32) (x2 : Vec Ideal S1x2048x1 .f32) (b : Fin 8) (p : Fin 3)
  (hx0 : ∀ r d, x0 (ix3 (0 : Fin 1) r d) = ((X (ix3 b r d) : ℝ) : EReal))
  (hw : ∀ d e, w (ix3 (0 : Fin 1) d e) = ((W (ix3 p d e) : ℝ) : EReal))
  (hx2 : ∀ r, x2 (ix3 (0 : Fin 1) r (0 : Fin 1)) = ((μ (ix2 b r) : ℝ) : EReal))

include hx0 hw hx2 in
theorem q_real (hp : p = 0) (r : Fin 2048) (e : Fin 256) :
    k0_pay5 x0 w x2 (ix2 r e) = ((Qp X W μ b r e : ℝ) : EReal) := by
  subst hp
  rw [pay5_apply]
  simp only [hx0, hw, hx2, Cert.Consts.ofBits_eighth]
  unfold Qp
  rw [EReal.coe_mul, Cert.OnlineSoftmax.coe_sum]
  simp only [EReal.coe_mul]

include hx0 hw in
theorem k_real (t : Fin 2048) (e : Fin 256) :
    k0_pay6 x0 w (ix2 t e) = ((Cert.Attn.proj X W p b t e : ℝ) : EReal) := by
  rw [pay6_apply]
  simp only [hx0, hw]
  unfold Cert.Attn.proj
  rw [Cert.OnlineSoftmax.coe_sum]
  simp only [EReal.coe_mul]

include hx0 hw in
theorem v_real (t : Fin 2048) (e : Fin 256) :
    k0_pay7 x0 w (ix2 t e) = ((Cert.Attn.proj X W p b t e : ℝ) : EReal) := by
  rw [pay7_apply]
  simp only [hx0, hw]
  unfold Cert.Attn.proj
  rw [Cert.OnlineSoftmax.coe_sum]
  simp only [EReal.coe_mul]

end blocks

/-- The state of row `r` of batch `b` after tiles `0 … j`: a real maximum, the normaliser and the weighted sums. -/
def RowState (b : Fin 8) (j : ℕ) (r : Fin 2048) (mx l : Vec Ideal S2048x1 .f32) (acc : Vec Ideal S2048x256 .f32) : Prop :=
  ∃ M : ℝ, mx (ix2 r (0 : Fin 1)) = ((M : ℝ) : EReal)
    ∧ l (ix2 r (0 : Fin 1)) = ((part (fun t => Real.exp (S X W μ b r t - M)) j : ℝ) : EReal)
    ∧ ∀ e : Fin 256, acc (ix2 r e)
        = ((part (fun t => Real.exp (S X W μ b r t - M) * Cert.Attn.proj X W 2 b t e) j : ℝ) : EReal)

section update

variable (i : grid0.Coords) (q kp vp : Vec Ideal S2048x256 .bf16) (b : Fin 8)
  (hq : ∀ r e, q (ix2 r e) = ((Qp X W μ b r e : ℝ) : EReal))
  (hk : ∀ t e, kp (ix2 t e) = ((Cert.Attn.proj X W 1 b t e : ℝ) : EReal))
  (hv : ∀ t e, vp (ix2 t e) = ((Cert.Attn.proj X W 2 b t e : ℝ) : EReal))

include hk in
theorem tile_k (j : ℕ) (hj : j < 4) (hi : (i 1).val = j) (u : Fin 512) (e : Fin 256) :
    tile i kp (ix2 u e) = ((Cert.Attn.proj X W 1 b (tix j u) e : ℝ) : EReal) := by
  rw [tile_apply i kp u e (tix j u) (by rw [Cert.OnlineSoftmax.tix_val j hj u, hi]), hk]

include hv in
theorem tile_v (j : ℕ) (hj : j < 4) (hi : (i 1).val = j) (u : Fin 512) (e : Fin 256) :
    tile i vp (ix2 u e) = ((Cert.Attn.proj X W 2 b (tix j u) e : ℝ) : EReal) := by
  rw [tile_apply i vp u e (tix j u) (by rw [Cert.OnlineSoftmax.tix_val j hj u, hi]), hv]

include hq hk hv in
/-- The first tile: from the reset state to the state after tile 0. -/
theorem first_state (hi : (i 1).val = 0) (r : Fin 2048) :
    RowState X W μ b 0 r (newM (tile i kp) q (k0_pay8 (F := Ideal))) (newL (tile i kp) q (k0_pay8 (F := Ideal)) (k0_pay9 (F := Ideal)))
      (newAcc (tile i kp) (tile i vp) q (k0_pay8 (F := Ideal)) (k0_pay10 (F := Ideal))) := by
  obtain ⟨M, h1, h2, h3⟩ := update_first (tile i kp) (tile i vp) q (Qp X W μ b)
    (fun u e => Cert.Attn.proj X W 1 b (tix 0 u) e) (fun u e => Cert.Attn.proj X W 2 b (tix 0 u) e) hq
    (tile_k X W i kp b hk 0 (by norm_num) hi) (tile_v X W i vp b hv 0 (by norm_num) hi)
    (k0_pay8 (F := Ideal)) (k0_pay9 (F := Ideal)) (k0_pay10 (F := Ideal)) pay8_apply pay9_apply pay10_apply r
  refine ⟨M, h1, ?_, fun e => ?_⟩
  · rw [h2, Cert.OnlineSoftmax.part_zero]; rfl
  · rw [h3 e, Cert.OnlineSoftmax.part_zero]; rfl

include hq hk hv in
/-- A later tile: the state after tiles `0 … j` becomes the state after tiles `0 … j + 1`. -/
theorem next_state (j : ℕ) (hj : j + 1 < 4) (hi : (i 1).val = j + 1) (r : Fin 2048)
    (mx l : Vec Ideal S2048x1 .f32) (acc : Vec Ideal S2048x256 .f32) (h : RowState X W μ b j r mx l acc) :
    RowState X W μ b (j + 1) r (newM (tile i kp) q mx) (newL (tile i kp) q mx l) (newAcc (tile i kp) (tile i vp) q mx acc) := by
  obtain ⟨Mp, hm, hl, ha⟩ := h
  obtain ⟨M, h1, h2, h3⟩ := update_next (tile i kp) (tile i vp) q (Qp X W μ b)
    (fun u e => Cert.Attn.proj X W 1 b (tix (j + 1) u) e) (fun u e => Cert.Attn.proj X W 2 b (tix (j + 1) u) e) hq
    (tile_k X W i kp b hk (j + 1) hj hi) (tile_v X W i vp b hv (j + 1) hj hi)
    mx l acc r Mp _ _ hm hl ha
  refine ⟨M, h1, ?_, fun e => ?_⟩
  · rw [h2, ← Cert.OnlineSoftmax.shift_part_l (S X W μ b r) Mp M j]; rfl
  · rw [h3 e, ← Cert.OnlineSoftmax.shift_part_acc (S X W μ b r) (fun t => Cert.Attn.proj X W 2 b t e) Mp M j]; rfl

end update

end Cert.KernelIdeal.Attention

end
-- ==== Proof.KernelValue.lean ====
/-
  The kernel's result array over real arguments: the attention output of the specification.

  Grid position n = 4·b + j runs key tile j of batch b. By induction on the position, the buffers the body carries
  hold the three projections of batch b and, row by row, the running state after tiles 0 … j; the position of the
  last tile (j = 3) leaves in the output block the weighted sums over the normaliser, which is the softmax average.
  Those are the only positions whose block is written back, and the eight blocks [1, 2048, 256] tile the result.
-/
import proofs.«180451_j15977278341749_2_alg».proof.Proof.Gen.KernelIdeal.Value
import proofs.«180451_j15977278341749_2_alg».proof.Proof.Steps
import Idealize.ShloMosaic.Lib.StableHlo.Run

set_option maxRecDepth 16384

noncomputable section

open scoped BigOperators

namespace Cert.KernelIdeal.Attention

open Cert.KernelIdeal Cert.KernelIdeal.Gen Cert.KernelIdeal.Tile
open Idealize.ShloMosaic Idealize.ShloMosaic.TcCoe Idealize.SL.Sem Idealize.ShloMosaic.ValueIdx
open Idealize.ShloMosaic.Pipeline (Dat)
open Cert.OnlineSoftmax (tix part)

variable (X : Cert.Attn.SX.Idx → ℝ) (W : Cert.Attn.SW.Idx → ℝ)
variable (m : (ℓ : Loc nD τ sig) → Buf (Elt Ideal) ℓ) (ρ : Dev nD → PrngReg)

/-- The boolean mask as the number 0 or 1. -/
def maskR (c : Dev nD) : Cert.Attn.SM.Idx → ℝ := fun i => (((m ((c : Thread nD τ).loc main_arg2) i).toNat : ℕ) : ℝ)

/-- The batch of a grid position. -/
def bat (n : ℕ) : Fin 8 := ⟨n / 4 % 8, Nat.mod_lt _ (by norm_num)⟩

/-- The block index maps over the grid: position n reads batch n / 4 of the tokens, the mask column and the output,
    the whole weights; its key tile is n % 4. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = 0
    ∧ ((grid0.coords t) 1).val = t.val % 4 :=
  (by decide +kernel : ∀ t : Fin grid0.N, _)

theorem bat_val (t : Fin cfg0.N) : (bat t.val).val = t.val / 4 := by
  have h : t.val < 32 := lt_of_lt_of_eq t.isLt (show cfg0.N = 32 from N_0)
  show t.val / 4 % 8 = t.val / 4
  omega

/-! ## The blocks a position loads -/

section blocks

variable (c : Dev nD)

/-- The mask column the region finds: the mask converted to a number, with a unit trailing axis. -/
theorem mask_col : (V m c main_v1 : S8x2048x1.Idx → EReal)
    = broadcastInDim S8x2048x1 ![0, 1] bcast_S8x2048_S8x2048x1_0_1 (uitofp (F := Ideal) .f32 (m ((c : Thread nD τ).loc main_arg2))) := by
  dsimp only [Gen.V, Gen.hostOps0]
  after_results

variable (hX : m ((c : Thread nD τ).loc main_arg0) = fun i => ((X i : ℝ) : EReal))
  (hW : m ((c : Thread nD τ).loc main_arg1) = fun i => ((W i : ℝ) : EReal))

include hX in
theorem blk0 (t : Fin cfg0.N) (r : Fin 2048) (d : Fin 256) :
    iblk m c 0 t (ix3 (0 : Fin 1) r d) = ((X (ix3 (bat t.val) r d) : ℝ) : EReal) := by
  obtain ⟨e0, e1, e2, -⟩ := idx_facts t
  have hb := bat_val t
  have h : iblk m c 0 t (ix3 (0 : Fin 1) r d) = V m c main_arg0 (ix3 (bat t.val) r d) := by
    show V m c main_arg0 (((cfg0.win 0).blk t).view.emb (ix3 (0 : Fin 1) r d)) = V m c main_arg0 (ix3 (bat t.val) r d)
    refine congrArg _ (funext fun a => Fin.ext ?_)
    match a with
    | ⟨0, _⟩ => show win0_0.index t (0 : Fin 3) * 1 + 1 * 0 = (bat t.val).val; omega
    | ⟨1, _⟩ => show win0_0.index t (1 : Fin 3) * 2048 + 1 * r.val = r.val; omega
    | ⟨2, _⟩ => show win0_0.index t (2 : Fin 3) * 256 + 1 * d.val = d.val; omega
  rw [h, V_main_arg0, hX]

include hW in
theorem blk1 (t : Fin cfg0.N) (p : Fin 3) (d e : Fin 256) :
    iblk m c 1 t (ix3 p d e) = ((W (ix3 p d e) : ℝ) : EReal) := by
  obtain ⟨-, -, -, e0, e1, e2, -⟩ := idx_facts t
  have h : iblk m c 1 t (ix3 p d e) = V m c main_arg1 (ix3 p d e) := by
    show V m c main_arg1 (((cfg0.win 1).blk t).view.emb (ix3 p d e)) = V m c main_arg1 (ix3 p d e)
    refine congrArg _ (funext fun a => Fin.ext ?_)
    match a with
    | ⟨0, _⟩ => show win0_1.index t (0 : Fin 3) * 3 + 1 * p.val = p.val; omega
    | ⟨1, _⟩ => show win0_1.index t (1 : Fin 3) * 256 + 1 * d.val = d.val; omega
    | ⟨2, _⟩ => show win0_1.index t (2 : Fin 3) * 256 + 1 * e.val = e.val; omega
  rw [h, V_main_arg1, hW]

theorem blk2 (t : Fin cfg0.N) (r : Fin 2048) :
    iblk m c 2 t (ix3 (0 : Fin 1) r (0 : Fin 1)) = ((maskR m c (ix2 (bat t.val) r) : ℝ) : EReal) := by
  obtain ⟨-, -, -, -, -, -, e0, e1, e2, -⟩ := idx_facts t
  have hb := bat_val t
  have h : iblk m c 2 t (ix3 (0 : Fin 1) r (0 : Fin 1)) = V m c main_v1 (ix3 (bat t.val) r (0 : Fin 1)) := by
    show V m c main_v1 (((cfg0.win 2).blk t).view.emb (ix3 (0 : Fin 1) r (0 : Fin 1))) = V m c main_v1 (ix3 (bat t.val) r (0 : Fin 1))
    refine congrArg _ (funext fun a => Fin.ext ?_)
    match a with
    | ⟨0, _⟩ => show win0_2.index t (0 : Fin 3) * 1 + 1 * 0 = (bat t.val).val; omega
    | ⟨1, _⟩ => show win0_2.index t (1 : Fin 3) * 2048 + 1 * r.val = r.val; omega
    | ⟨2, _⟩ => show win0_2.index t (2 : Fin 3) * 1 + 1 * 0 = 0; omega
  rw [h, mask_col, broadcastInDim_apply _ _ _ _ (ix2 (bat t.val) r) (fun a => by
    match a with
    | ⟨0, _⟩ => rfl
    | ⟨1, _⟩ => rfl)]
  rfl

end blocks

/-! ## The carried buffers after every position -/

/-- What the carried buffers hold after the position of key tile `j` of batch `b`; at the last tile also the
    output block. -/
def InvT (μ : Cert.Attn.SM.Idx → ℝ) (b : Fin 8) (j : ℕ) (o : Vec Ideal S1x2048x256 .f32 × Vec Ideal S2048x256 .bf16 × Vec Ideal S2048x256 .bf16 × Vec Ideal S2048x256 .bf16 × Vec Ideal S2048x1 .f32 × Vec Ideal S2048x1 .f32 × Vec Ideal S2048x256 .f32) : Prop :=
  (∀ r e, o.2.1 (ix2 r e) = ((Qp X W μ b r e : ℝ) : EReal))
  ∧ (∀ t e, o.2.2.1 (ix2 t e) = ((Cert.Attn.proj X W 1 b t e : ℝ) : EReal))
  ∧ (∀ t e, o.2.2.2.1 (ix2 t e) = ((Cert.Attn.proj X W 2 b t e : ℝ) : EReal))
  ∧ (∀ r, RowState X W μ b j r o.2.2.2.2.1 o.2.2.2.2.2.1 o.2.2.2.2.2.2)
  ∧ (j = 3 → ∀ r e, o.1 (ix3 (0 : Fin 1) r e) = ((Cert.Attn.out X W μ b r e : ℝ) : EReal))

section induction

variable (c : Dev nD)
  (hX : m ((c : Thread nD τ).loc main_arg0) = fun i => ((X i : ℝ) : EReal))
  (hW : m ((c : Thread nD τ).loc main_arg1) = fun i => ((W i : ℝ) : EReal))

include hX hW in
/-- A position of a first key tile: the projections are computed and the first update made. -/
theorem inv_first (t : Fin cfg0.N) (h0 : t.val % 4 = 0) :
    InvT X W (maskR m c) (bat t.val) (t.val % 4) (outsAt0 m c t.val t.isLt) := by
  have h1 : ¬t.val % 4 = 3 := by omega
  obtain ⟨-, -, -, -, -, -, -, -, -, -, -, -, hkv⟩ := idx_facts t
  have hx0 := blk0 X m c hX t
  have hx2 := blk2 m c t
  have hw0 : ∀ d e, slab0 (iblk m c 1 t) (ix3 (0 : Fin 1) d e) = ((W (ix3 (0 : Fin 3) d e) : ℝ) : EReal) :=
    fun d e => (slab0_apply _ d e).trans (blk1 W m c hW t 0 d e)
  have hw1 : ∀ d e, slab1 (iblk m c 1 t) (ix3 (0 : Fin 1) d e) = ((W (ix3 (1 : Fin 3) d e) : ℝ) : EReal) :=
    fun d e => (slab1_apply _ d e).trans (blk1 W m c hW t 1 d e)
  have hw2 : ∀ d e, slab2 (iblk m c 1 t) (ix3 (0 : Fin 1) d e) = ((W (ix3 (2 : Fin 3) d e) : ℝ) : EReal) :=
    fun d e => (slab2_apply _ d e).trans (blk1 W m c hW t 2 d e)
  have hq := q_real X W (maskR m c) (iblk m c 0 t) (slab0 (iblk m c 1 t)) (iblk m c 2 t) (bat t.val) 0 hx0 hw0 hx2 rfl
  have hk := k_real X W (iblk m c 0 t) (slab1 (iblk m c 1 t)) (bat t.val) 1 hx0 hw1
  have hv := v_real X W (iblk m c 0 t) (slab2 (iblk m c 1 t)) (bat t.val) 2 hx0 hw2
  have key : InvT X W (maskR m c) (bat t.val) 0 (outsAt0 m c t.val t.isLt) := by
    rw [outsAt0_A m c t h0 h1]
    rw [first_q, first_k, first_v, first_m, first_l, first_acc]
    exact ⟨hq, hk, hv, fun r => first_state X W (maskR m c) (grid0.coords t) _ _ _ (bat t.val) hq hk hv (by rw [hkv, h0]) r,
      fun h => absurd h (by norm_num)⟩
  rw [h0]
  exact key

include hX hW in
/-- A position of a middle key tile: the projections stay, the state advances by one tile. -/
theorem inv_mid (n : ℕ) (hn : n + 1 < cfg0.N) (h0 : ¬(n + 1) % 4 = 0) (h1 : ¬(n + 1) % 4 = 3)
    (ih : InvT X W (maskR m c) (bat n) (n % 4) (outsAt0 m c n (Nat.lt_of_succ_lt hn))) :
    InvT X W (maskR m c) (bat (n + 1)) ((n + 1) % 4) (outsAt0 m c (n + 1) hn) := by
  obtain ⟨iq, ik, iv, ist, -⟩ := ih
  have hN : n + 1 < 32 := lt_of_lt_of_eq hn (show cfg0.N = 32 from N_0)
  have hbat : bat (n + 1) = bat n := Fin.ext (by show (n + 1) / 4 % 8 = n / 4 % 8; omega)
  have hj : (n + 1) % 4 = n % 4 + 1 := by omega
  obtain ⟨-, -, -, -, -, -, -, -, -, -, -, -, hkv⟩ := idx_facts ⟨n + 1, hn⟩
  have key : InvT X W (maskR m c) (bat n) (n % 4 + 1) (outsAt0 m c (n + 1) hn) := by
    rw [outsAt0_B m c ⟨n + 1, hn⟩ h0 h1]
    rw [mid_m, mid_l, mid_acc]
    exact ⟨iq, ik, iv,
      fun r => next_state X W (maskR m c) (grid0.coords ⟨n + 1, hn⟩) _ _ _ (bat n) iq ik iv (n % 4) (by omega)
        (by rw [hkv]; exact hj) r _ _ _ (ist r),
      fun h => absurd h (by omega)⟩
  rw [hbat, hj]
  exact key

/-- The output block of a last tile: the weighted sums over the normaliser are the softmax average. -/
theorem out_of_state (μ : Cert.Attn.SM.Idx → ℝ) (b : Fin 8) (r : Fin 2048) (mx l : Vec Ideal S2048x1 .f32)
    (acc : Vec Ideal S2048x256 .f32) (h : RowState X W μ b 3 r mx l acc) (e : Fin 256) :
    k0_pay3 acc l (ix3 (0 : Fin 1) r e) = ((Cert.Attn.out X W μ b r e : ℝ) : EReal) := by
  obtain ⟨M, -, hl, ha⟩ := h
  rw [pay3_apply, ha e, hl, Cert.OnlineSoftmax.div_coe_pos _ _ (Cert.OnlineSoftmax.part_exp_pos _ M 3),
    Cert.OnlineSoftmax.online_final (S X W μ b r) (fun t => Cert.Attn.proj X W 2 b t e) M]
  unfold Cert.Attn.out
  simp only [S_eq_score]

include hX hW in
/-- A position of a last key tile: the state advances once more and the output block is written. -/
theorem inv_last (n : ℕ) (hn : n + 1 < cfg0.N) (h0 : ¬(n + 1) % 4 = 0) (h1 : (n + 1) % 4 = 3)
    (ih : InvT X W (maskR m c) (bat n) (n % 4) (outsAt0 m c n (Nat.lt_of_succ_lt hn))) :
    InvT X W (maskR m c) (bat (n + 1)) ((n + 1) % 4) (outsAt0 m c (n + 1) hn) := by
  obtain ⟨iq, ik, iv, ist, -⟩ := ih
  have hN : n + 1 < 32 := lt_of_lt_of_eq hn (show cfg0.N = 32 from N_0)
  have hbat : bat (n + 1) = bat n := Fin.ext (by show (n + 1) / 4 % 8 = n / 4 % 8; omega)
  have hj2 : n % 4 = 2 := by omega
  rw [hj2] at ist
  obtain ⟨-, -, -, -, -, -, -, -, -, -, -, -, hkv⟩ := idx_facts ⟨n + 1, hn⟩
  have key : InvT X W (maskR m c) (bat n) 3 (outsAt0 m c (n + 1) hn) := by
    rw [outsAt0_C m c ⟨n + 1, hn⟩ h0 h1]
    rw [last_m, last_l, last_acc, last_out]
    have hst := fun r => next_state X W (maskR m c) (grid0.coords ⟨n + 1, hn⟩) _ _ _ (bat n) iq ik iv 2 (by norm_num)
        (by rw [hkv]; exact h1) r _ _ _ (ist r)
    exact ⟨iq, ik, iv, hst, fun _ r e => out_of_state X W (maskR m c) (bat n) r _ _ _ (hst r) e⟩
  rw [hbat, h1]
  exact key

include hX hW in
/-- After every grid position the carried buffers hold the projections and the running state of its batch. -/
theorem inv_all : ∀ (n : ℕ) (hn : n < cfg0.N), InvT X W (maskR m c) (bat n) (n % 4) (outsAt0 m c n hn) := by
  intro n
  induction n with
  | zero => intro hn; exact inv_first X W m c hX hW ⟨0, hn⟩ rfl
  | succ n ih =>
    intro hn
    by_cases h0 : (n + 1) % 4 = 0
    · exact inv_first X W m c hX hW ⟨n + 1, hn⟩ h0
    · by_cases h1 : (n + 1) % 4 = 3
      · exact inv_last X W m c hX hW n hn h0 h1 (ih (Nat.lt_of_succ_lt hn))
      · exact inv_mid X W m c hX hW n hn h0 h1 (ih (Nat.lt_of_succ_lt hn))

/-! ## The result array -/

/-- The attention output as an array over the result's index set. -/
def G : Buf (Elt Ideal) ((c : Thread nD τ).loc main_v2) :=
  fun i : S8x2048x256.Idx => ((Cert.Attn.out X W (maskR m c) (i 0) (i 1) (i 2) : ℝ) : EReal)

include hX hW in
/-- What a last-tile position writes back is its batch's block of the attention output. -/
theorem flushed_eq (t : Fin cfg0.N) (hf : (cfg0.win 3).flush t = true) :
    (dats m 0 c).flushed 3 t = ((cfg0.win 3).blk t).view.read (Elt Ideal) (G X W m c) := by
  have h3 : t.val % 4 = 3 := (flush0_3 t).mp hf
  obtain ⟨-, -, -, -, -, -, -, -, -, e0, e1, e2, -⟩ := idx_facts t
  have hb := bat_val t
  have hinv := (inv_all X W m c hX hW t.val t.isLt).2.2.2.2 h3
  rw [Value.flushed3]
  funext y
  show (outsAt0 m c t.val t.isLt).1 y = G X W m c (((cfg0.win 3).blk t).view.emb y)
  have hy0 : (y 0).val < 1 := (y 0).isLt
  have hy : (y : S1x2048x256.Idx) = ix3 (0 : Fin 1) (y 1) (y 2) := funext fun a => by
    match a with
    | ⟨0, _⟩ => exact Fin.ext (by show (y 0).val = 0; omega)
    | ⟨1, _⟩ => rfl
    | ⟨2, _⟩ => rfl
  have ee : ((cfg0.win 3).blk t).view.emb y = ix3 (bat t.val) (y 1) (y 2) := funext fun a => Fin.ext (by
    match a with
    | ⟨0, _⟩ => show win0_3.index t (0 : Fin 3) * 1 + 1 * (y 0).val = (bat t.val).val; omega
    | ⟨1, _⟩ => show win0_3.index t (1 : Fin 3) * 2048 + 1 * (y 1).val = (y 1).val; omega
    | ⟨2, _⟩ => show win0_3.index t (2 : Fin 3) * 256 + 1 * (y 2).val = (y 2).val; omega)
  have hl : (outsAt0 m c t.val t.isLt).1 y = (outsAt0 m c t.val t.isLt).1 (ix3 (0 : Fin 1) (y 1) (y 2)) := congrArg _ hy
  rw [hl, hinv (y 1) (y 2), ee]
  rfl

/-- An index of the result is in a position's block iff each coordinate is in the block's range. -/
theorem mem_blk (t : Fin cfg0.N) (i : S8x2048x256.Idx) :
    i ∈ ((cfg0.win 3).blk t).view.set ↔ ∀ a : Fin 3, win0_3.index t a * S1x2048x256.size a ≤ (i a).val
      ∧ (i a).val < win0_3.index t a * S1x2048x256.size a + S1x2048x256.size a := by
  show i ∈ ((View.whole main_v2).slice (win0_3.rect t)).set ↔ _
  rw [View.set_slice_whole, Rect.mem_set_unit]
  exact Iff.rfl

/-- Every index of the result lies in the block of its batch's last-tile position. -/
theorem cover (i : S8x2048x256.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 256 := (i 2).isLt
  have hN : cfg0.N = 32 := N_0
  have htl : 4 * (i 0).val + 3 < cfg0.N := by rw [hN]; omega
  obtain ⟨-, -, -, -, -, -, -, -, -, e0, e1, e2, -⟩ := idx_facts ⟨4 * (i 0).val + 3, htl⟩
  have e0' : win0_3.index ⟨4 * (i 0).val + 3, htl⟩ (0 : Fin 3) = (4 * (i 0).val + 3) / 4 := e0
  refine ⟨⟨4 * (i 0).val + 3, htl⟩, (flush0_3 _).mpr (by show (4 * (i 0).val + 3) % 4 = 3; omega), ?_⟩
  rw [mem_blk]
  intro a
  match a with
  | ⟨0, _⟩ =>
    show win0_3.index ⟨4 * (i 0).val + 3, htl⟩ (0 : Fin 3) * 1 ≤ (i 0).val
      ∧ (i 0).val < win0_3.index ⟨4 * (i 0).val + 3, htl⟩ (0 : Fin 3) * 1 + 1
    omega
  | ⟨1, _⟩ =>
    show win0_3.index ⟨4 * (i 0).val + 3, htl⟩ (1 : Fin 3) * 2048 ≤ (i 1).val
      ∧ (i 1).val < win0_3.index ⟨4 * (i 0).val + 3, htl⟩ (1 : Fin 3) * 2048 + 2048
    omega
  | ⟨2, _⟩ =>
    show win0_3.index ⟨4 * (i 0).val + 3, htl⟩ (2 : Fin 3) * 256 ≤ (i 2).val
      ∧ (i 2).val < win0_3.index ⟨4 * (i 0).val + 3, htl⟩ (2 : Fin 3) * 256 + 256
    omega

include hX hW in
/-- The result array after the run is the attention output. -/
theorem final : (dats m 0 c).arrAt 3 cfg0.N = G X W m c :=
  (dats m 0 c).arrAt_eq_of_cover 3 (G X W m c) (fun t hf => flushed_eq X W m c hX hW t hf) cover

end induction

end Cert.KernelIdeal.Attention

end
-- ==== Proof.RefValue.lean ====
/-
  The reference program's result, entry by entry, over real arguments: the plain softmax attention of AttnSpec.
-/
import proofs.«180451_j15977278341749_2_alg».proof.Proof.Gen.ReferenceIdeal.Read
import proofs.«180451_j15977278341749_2_alg».proof.Proof.AttnSpec
import proofs.«180451_j15977278341749_2_alg».proof.Proof.OnlineSoftmax
import proofs.«180451_j15977278341749_2_alg».proof.Proof.Consts

noncomputable section

open scoped BigOperators

namespace Cert.ReferenceIdeal.RefValue

open Cert.ReferenceIdeal Cert.ReferenceIdeal.Gen Idealize.ShloMosaic Idealize.ShloMosaic.TcCoe Idealize.ShloMosaic.ValueIdx

open Cert.Consts (ofBits_eighth ofBits_neg_inf)

/-! ## The three projections -/

section Stages

variable (X : Cert.Attn.SX.Idx → ℝ) (W : Cert.Attn.SW.Idx → ℝ)

/-- The token read by term `k` of the query projection's sum. -/
theorem lidx2 (b : Fin 8) (t : Fin 2048) (e k : Fin 256) : Read.lidx_main_v2 (ix3 b t e) k = ix3 b t k :=
  funext fun a => Fin.ext (by match a with | ⟨0, _⟩ => rfl | ⟨1, _⟩ => rfl | ⟨2, _⟩ => rfl)

/-- The same for the key projection. -/
theorem lidx5 (b : Fin 8) (t : Fin 2048) (e k : Fin 256) : Read.lidx_main_v5 (ix3 b t e) k = ix3 b t k :=
  funext fun a => Fin.ext (by match a with | ⟨0, _⟩ => rfl | ⟨1, _⟩ => rfl | ⟨2, _⟩ => rfl)

/-- The same for the value projection. -/
theorem lidx8 (b : Fin 8) (t : Fin 2048) (e k : Fin 256) : Read.lidx_main_v8 (ix3 b t e) k = ix3 b t k :=
  funext fun a => Fin.ext (by match a with | ⟨0, _⟩ => rfl | ⟨1, _⟩ => rfl | ⟨2, _⟩ => rfl)

/-- The weight read by term `k` of the query projection's sum: matrix 0, row `k`, column `e`. -/
theorem widx0 (b : Fin 8) (t : Fin 2048) (e k : Fin 256) :
    Read.idx_main_v0 (Read.idx_main_v1 (Read.ridx_main_v2 (ix3 b t e) k)) = ix3 (0 : Fin 3) k e :=
  funext fun a => Fin.ext (by
    have hk := k.isLt
    have he := e.isLt
    match a with
    | ⟨0, _⟩ => rfl
    | ⟨1, _⟩ => show (k.val * 256 + e.val) / 256 % 256 = k.val; omega
    | ⟨2, _⟩ => show (k.val * 256 + e.val) % 256 = e.val; omega)

/-- The weight read by term `k` of the key projection's sum: matrix 1, row `k`, column `e`. -/
theorem widx1 (b : Fin 8) (t : Fin 2048) (e k : Fin 256) :
    Read.idx_main_v3 (Read.idx_main_v4 (Read.ridx_main_v5 (ix3 b t e) k)) = ix3 (1 : Fin 3) k e :=
  funext fun a => Fin.ext (by
    have hk := k.isLt
    have he := e.isLt
    match a with
    | ⟨0, _⟩ => rfl
    | ⟨1, _⟩ => show (k.val * 256 + e.val) / 256 % 256 = k.val; omega
    | ⟨2, _⟩ => show (k.val * 256 + e.val) % 256 = e.val; omega)

/-- The weight read by term `k` of the value projection's sum: matrix 2, row `k`, column `e`. -/
theorem widx2 (b : Fin 8) (t : Fin 2048) (e k : Fin 256) :
    Read.idx_main_v6 (Read.idx_main_v7 (Read.ridx_main_v8 (ix3 b t e) k)) = ix3 (2 : Fin 3) k e :=
  funext fun a => Fin.ext (by
    have hk := k.isLt
    have he := e.isLt
    match a with
    | ⟨0, _⟩ => rfl
    | ⟨1, _⟩ => show (k.val * 256 + e.val) / 256 % 256 = k.val; omega
    | ⟨2, _⟩ => show (k.val * 256 + e.val) % 256 = e.val; omega)

/-- The query projection is a real number: the specification's. -/
theorem v2_apply (b : Fin 8) (t : Fin 2048) (e : Fin 256) :
    Read.val_main_v2 (F := Ideal) (fun i => ((X i : ℝ) : EReal)) (fun i => ((W i : ℝ) : EReal)) (ix3 b t e)
      = ((Cert.Attn.proj X W 0 b t e : ℝ) : EReal) := by
  rw [Read.val_main_v2_apply]
  simp only [Read.val_main_v1_apply, Read.val_main_v0_apply, lidx2, widx0]
  unfold Cert.Attn.proj
  rw [Cert.OnlineSoftmax.coe_sum]
  refine Finset.sum_congr rfl fun k _ => ?_
  rw [EReal.coe_mul]

/-- The key projection likewise. -/
theorem v5_apply (b : Fin 8) (t : Fin 2048) (e : Fin 256) :
    Read.val_main_v5 (F := Ideal) (fun i => ((X i : ℝ) : EReal)) (fun i => ((W i : ℝ) : EReal)) (ix3 b t e)
      = ((Cert.Attn.proj X W 1 b t e : ℝ) : EReal) := by
  rw [Read.val_main_v5_apply]
  simp only [Read.val_main_v4_apply, Read.val_main_v3_apply, lidx5, widx1]
  unfold Cert.Attn.proj
  rw [Cert.OnlineSoftmax.coe_sum]
  refine Finset.sum_congr rfl fun k _ => ?_
  rw [EReal.coe_mul]

/-- The value projection likewise. -/
theorem v8_apply (b : Fin 8) (t : Fin 2048) (e : Fin 256) :
    Read.val_main_v8 (F := Ideal) (fun i => ((X i : ℝ) : EReal)) (fun i => ((W i : ℝ) : EReal)) (ix3 b t e)
      = ((Cert.Attn.proj X W 2 b t e : ℝ) : EReal) := by
  rw [Read.val_main_v8_apply]
  simp only [Read.val_main_v7_apply, Read.val_main_v6_apply, lidx8, widx2]
  unfold Cert.Attn.proj
  rw [Cert.OnlineSoftmax.coe_sum]
  refine Finset.sum_congr rfl fun k _ => ?_
  rw [EReal.coe_mul]

/-! ## The masked, scaled scores -/

variable (x2 : (⟨S8x2048, .i1⟩ : BufTy).Contents (Elt Ideal))

/-- The query entry read by term `k` of a score's sum. -/
theorem lidx9 (b : Fin 8) (r t : Fin 2048) (k : Fin 256) : Read.lidx_main_v9 (ix3 b r t) k = ix3 b r k :=
  funext fun a => Fin.ext (by match a with | ⟨0, _⟩ => rfl | ⟨1, _⟩ => rfl | ⟨2, _⟩ => rfl)

/-- The key entry read by term `k` of a score's sum. -/
theorem ridx9 (b : Fin 8) (r t : Fin 2048) (k : Fin 256) : Read.ridx_main_v9 (ix3 b r t) k = ix3 b t k :=
  funext fun a => Fin.ext (by match a with | ⟨0, _⟩ => rfl | ⟨1, _⟩ => rfl | ⟨2, _⟩ => rfl)

/-- The mask entry that multiplies the scores of query row `r`. -/
theorem midx (b : Fin 8) (r t : Fin 2048) : Read.idx_main_v12 (Read.idx_main_v14 (ix3 b r t)) = ix2 b r :=
  funext fun a => Fin.ext (by match a with | ⟨0, _⟩ => rfl | ⟨1, _⟩ => rfl)

/-- A mask bit converted to a float is the number 0 or 1. -/
theorem uitofp_bit (c : BitVec 1) : FloatOps.uitofp (F := Ideal) .f32 c = (((c.toNat : ℕ) : ℝ) : EReal) := rfl

/-- The masked, scaled score is a real number: the specification's. -/
theorem v15_apply (b : Fin 8) (r t : Fin 2048) :
    Read.val_main_v15 (F := Ideal) (fun i => ((X i : ℝ) : EReal)) (fun i => ((W i : ℝ) : EReal)) x2 (ix3 b r t)
      = ((Cert.Attn.score X W (fun i => (((x2 i).toNat : ℕ) : ℝ)) b r t : ℝ) : EReal) := by
  rw [Read.val_main_v15_apply, Read.val_main_v11_apply, Read.val_main_v9_apply, Read.val_main_v10_apply,
    Read.val_main_cst_apply, Read.val_main_v14_apply, Read.val_main_v13_apply, Read.val_main_v12_apply]
  simp only [lidx9, ridx9, midx, v2_apply, v5_apply, uitofp_bit, Ideal.mulf_def, Ideal.ofBits_def, ofBits_eighth]
  unfold Cert.Attn.score
  rw [EReal.coe_mul, EReal.coe_mul, Cert.OnlineSoftmax.coe_sum]
  simp only [EReal.coe_mul]

/-! ## The row maximum -/

/-- The scores' array with its last axis dropped is the array of rows. -/
theorem red_h : S8x2048x2048.Reduces [2] S8x2048 := by decide

/-- Row `(b, r)` with key position `k` put back on the dropped axis is the entry `(b, r, k)`. -/
theorem lift_ix3 (b : Fin 8) (r k : Fin 2048) : red_h.lift (ix2 b r) k = ix3 b r k := by
  funext c; apply Fin.ext
  fin_cases c <;> rfl

/-- From `-∞`, the maximum over the last axis of an array whose row `(b, r)` holds 2048 reals is a real. -/
theorem rowmax_real (x : FVec Ideal S8x2048x2048 .f32) (init : FVec Ideal S_ .f32)
    (hinit : init (Shape.Idx.first h_S_) = (⊥ : EReal)) (b : Fin 8) (r : Fin 2048) (σ : Fin 2048 → ℝ)
    (hx : ∀ t, x (ix3 b r t) = ((σ t : ℝ) : EReal)) :
    ∃ M : ℝ, Host.reduce (FloatOps.maximumf (F := Ideal) (φ := .f32)) x init reducesTo_S8x2048x2048_S8x2048_d2 h_S_ (ix2 b r) = (M : EReal) := by
  obtain ⟨M, hM⟩ := Cert.OnlineSoftmax.fold_max_real (n := 2047) σ ⊥ bot_ne_top
  rw [max_bot_left] at hM
  refine ⟨M, ?_⟩
  rw [Host.reduce_eq_fold_single FloatOps.maximumf _ _ reducesTo_S8x2048x2048_S8x2048_d2 red_h h_S_, hinit]
  have e : (x ∘ red_h.lift (ix2 b r)) = fun k : Fin 2048 => ((σ k : ℝ) : EReal) :=
    funext fun (k : Fin 2048) => (congrArg x (lift_ix3 b r k)).trans (hx k)
  rw [e]
  exact hM

/-- The row maximum that the softmax subtracts is a real number: there are 2048 real scores in a row. -/
theorem v18_real (b : Fin 8) (r : Fin 2048) :
    ∃ M : ℝ, Read.val_main_v18 (F := Ideal) (fun i => ((X i : ℝ) : EReal)) (fun i => ((W i : ℝ) : EReal)) x2 (ix2 b r)
      = (M : EReal) := by
  obtain ⟨M, hM⟩ := rowmax_real
    (Read.val_main_v15 (F := Ideal) (fun i => ((X i : ℝ) : EReal)) (fun i => ((W i : ℝ) : EReal)) x2)
    (Read.val_main_cst_0 (F := Ideal))
    (by rw [Read.val_main_cst_0_apply, Ideal.ofBits_def, ofBits_neg_inf]) b r
    (fun t => Cert.Attn.score X W (fun i => (((x2 i).toNat : ℕ) : ℝ)) b r t) (fun t => v15_apply X W x2 b r t)
  refine ⟨M, ?_⟩
  rw [Read.val_main_v18_apply, Read.val_main_v17_apply, Read.val_main_cst_1_apply, Ideal.ofBits_def, ofBits_neg_inf,
    Ideal.maximumf_def]
  unfold Read.val_main_v16
  rw [hM, max_bot_left]

/-! ## The exponentials, their sum, the weights and the average -/

/-- The row whose maximum is subtracted from the score at `(b, r, t)`. -/
theorem bidx20 (b : Fin 8) (r t : Fin 2048) : Read.idx_main_v19 (Read.idx_main_v20 (ix3 b r t)) = ix2 b r :=
  funext fun a => Fin.ext (by match a with | ⟨0, _⟩ => rfl | ⟨1, _⟩ => rfl)

/-- The row whose sum divides the exponential at `(b, r, t)`. -/
theorem bidx25 (b : Fin 8) (r t : Fin 2048) : Read.idx_main_v24 (Read.idx_main_v25 (ix3 b r t)) = ix2 b r :=
  funext fun a => Fin.ext (by match a with | ⟨0, _⟩ => rfl | ⟨1, _⟩ => rfl)

/-- The entry read by term `k` of a row's sum of exponentials. -/
theorem idx23 (b : Fin 8) (r k : Fin 2048) : Read.idx_main_v23 (ix2 b r) k = ix3 b r k :=
  funext fun a => Fin.ext (by match a with | ⟨0, _⟩ => rfl | ⟨1, _⟩ => rfl | ⟨2, _⟩ => rfl)

/-- The weight read by term `k` of the average. -/
theorem lidx27 (b : Fin 8) (r : Fin 2048) (e : Fin 256) (k : Fin 2048) : Read.lidx_main_v27 (ix3 b r e) k = ix3 b r k :=
  funext fun a => Fin.ext (by match a with | ⟨0, _⟩ => rfl | ⟨1, _⟩ => rfl | ⟨2, _⟩ => rfl)

/-- The value entry read by term `k` of the average. -/
theorem ridx27 (b : Fin 8) (r : Fin 2048) (e : Fin 256) (k : Fin 2048) : Read.ridx_main_v27 (ix3 b r e) k = ix3 b k e :=
  funext fun a => Fin.ext (by match a with | ⟨0, _⟩ => rfl | ⟨1, _⟩ => rfl | ⟨2, _⟩ => rfl)

/-- With the row maximum `M`, the exponential at `(b, r, t)` is `exp (score - M)`. -/
theorem v22_apply (b : Fin 8) (r t : Fin 2048) (M : ℝ)
    (hM : Read.val_main_v18 (F := Ideal) (fun i => ((X i : ℝ) : EReal)) (fun i => ((W i : ℝ) : EReal)) x2 (ix2 b r) = (M : EReal)) :
    Read.val_main_v22 (F := Ideal) (fun i => ((X i : ℝ) : EReal)) (fun i => ((W i : ℝ) : EReal)) x2 (ix3 b r t)
      = ((Real.exp (Cert.Attn.score X W (fun i => (((x2 i).toNat : ℕ) : ℝ)) b r t - M) : ℝ) : EReal) := by
  rw [Read.val_main_v22_apply, Read.val_main_v21_apply, Read.val_main_v20_apply, Read.val_main_v19_apply, bidx20, hM,
    v15_apply, Ideal.subf_def, Ideal.hostUnary_exp_def, ← EReal.coe_sub, Ideal.exp_coe]

/-- The sum of a row's exponentials. -/
theorem v23_apply (b : Fin 8) (r : Fin 2048) (M : ℝ)
    (hM : Read.val_main_v18 (F := Ideal) (fun i => ((X i : ℝ) : EReal)) (fun i => ((W i : ℝ) : EReal)) x2 (ix2 b r) = (M : EReal)) :
    Read.val_main_v23 (F := Ideal) (fun i => ((X i : ℝ) : EReal)) (fun i => ((W i : ℝ) : EReal)) x2 (ix2 b r)
      = ((∑ t : Fin 2048, Real.exp (Cert.Attn.score X W (fun i => (((x2 i).toNat : ℕ) : ℝ)) b r t - M) : ℝ) : EReal) := by
  rw [Read.val_main_v23_apply, Read.val_main_cst_2_apply, Ideal.ofBits_def, Ideal.ofBits_zero_f32, zero_add,
    Cert.OnlineSoftmax.coe_sum]
  refine Finset.sum_congr rfl fun k _ => ?_
  rw [idx23, v22_apply X W x2 b r k M hM]

/-- The softmax weight at `(b, r, t)`. -/
theorem v26_apply (b : Fin 8) (r t : Fin 2048) (M : ℝ)
    (hM : Read.val_main_v18 (F := Ideal) (fun i => ((X i : ℝ) : EReal)) (fun i => ((W i : ℝ) : EReal)) x2 (ix2 b r) = (M : EReal)) :
    Read.val_main_v26 (F := Ideal) (fun i => ((X i : ℝ) : EReal)) (fun i => ((W i : ℝ) : EReal)) x2 (ix3 b r t)
      = ((Real.exp (Cert.Attn.score X W (fun i => (((x2 i).toNat : ℕ) : ℝ)) b r t - M)
          / ∑ t' : Fin 2048, Real.exp (Cert.Attn.score X W (fun i => (((x2 i).toNat : ℕ) : ℝ)) b r t' - M) : ℝ) : EReal) := by
  rw [Read.val_main_v26_apply, Read.val_main_v25_apply, Read.val_main_v24_apply, bidx25, v22_apply X W x2 b r t M hM,
    v23_apply X W x2 b r M hM, Ideal.hostDivf_def]
  exact Cert.OnlineSoftmax.div_coe_pos _ _ (Finset.sum_pos (fun t' _ => Real.exp_pos _) Finset.univ_nonempty)

end Stages

/-- At real-valued tokens and weights the reference's result at (b, r, e) is the attention output of the
    specification, the mask read as the number 0 or 1. -/
theorem ref_apply (X : Cert.Attn.SX.Idx → ℝ) (W : Cert.Attn.SW.Idx → ℝ)
    (x2 : (⟨S8x2048, .i1⟩ : BufTy).Contents (Elt Ideal)) (b : Fin 8) (r : Fin 2048) (e : Fin 256) :
    Read.val_main_v27 (F := Ideal) (fun i => ((X i : ℝ) : EReal)) (fun i => ((W i : ℝ) : EReal)) x2 (ix3 b r e)
      = ((Cert.Attn.out X W (fun i => (((x2 i).toNat : ℕ) : ℝ)) b r e : ℝ) : EReal) := by
  obtain ⟨M, hM⟩ := v18_real X W x2 b r
  rw [Read.val_main_v27_apply]
  simp only [lidx27, ridx27, v26_apply X W x2 b r _ M hM, v8_apply]
  unfold Cert.Attn.out
  rw [← Cert.OnlineSoftmax.softmax_plain (fun t => Cert.Attn.score X W (fun i => (((x2 i).toNat : ℕ) : ℝ)) b r t)
    (fun t => Cert.Attn.proj X W 2 b t e) M, Cert.OnlineSoftmax.coe_sum]
  refine Finset.sum_congr rfl fun k _ => ?_
  rw [EReal.coe_mul]

end Cert.ReferenceIdeal.RefValue

end
-- ==== Proof.lean ====
/-
  Fused self-attention in one kernel against the plain formula.

  Both programs take tokens x : [8, 2048, 256], three 256 x 256 weight matrices and a boolean row mask, and return
  softmax (mask · (x Wq) (x Wk)ᵀ / 8) (x Wv), batch by batch. The reference forms the whole 2048 x 2048 score matrix,
  subtracts each row's maximum, exponentiates, normalises and multiplies by the values. The kernel folds the scale
  1/8 and the mask into the query projection, visits the keys in four tiles of 512, and keeps per query row a running
  maximum M, a normaliser ∑ exp (s - M) and weighted sums ∑ exp (s - M) · v, rescaled by exp (M_old - M_new) at each
  tile; it divides once after the last tile.

  Over the extended reals with finite tokens and weights every quantity above is a real number. The quotient
  (∑ exp (s t - M) · v t) / (∑ exp (s t - M)) does not depend on the constant M, so the kernel's result (M the running
  maximum, reached tile by tile) and the reference's (M the row maximum, weights normalised before the average) are
  both (∑ exp (s t) · v t) / (∑ exp (s t)) — the specification in Proof/AttnSpec.lean. The kernel's side is
  Proof/KernelValue.lean (over Pieces, TileRead, Update, Steps), the reference's Proof/RefValue.lean, the real
  analysis Proof/OnlineSoftmax.lean, and that the precondition makes the arguments real Proof/FiniteArgs.lean.
  The two frames of the kernel are the generated ones; the reference's frame is its run; nothing was idealized by
  rewriting, so the preservation claim is trivial.
-/
import proofs.«180451_j15977278341749_2_alg».proof.Defs
import proofs.«180451_j15977278341749_2_alg».proof.Proof.Gen.Kernel
import proofs.«180451_j15977278341749_2_alg».proof.Proof.Gen.Kernel.Skeleton
import proofs.«180451_j15977278341749_2_alg».proof.Proof.Gen.Kernel.Launch
import proofs.«180451_j15977278341749_2_alg».proof.Proof.Gen.Kernel.Points
import proofs.«180451_j15977278341749_2_alg».proof.Proof.Gen.Kernel.Frame
import proofs.«180451_j15977278341749_2_alg».proof.Proof.Gen.KernelIdeal
import proofs.«180451_j15977278341749_2_alg».proof.Proof.Gen.KernelIdeal.Skeleton
import proofs.«180451_j15977278341749_2_alg».proof.Proof.Gen.KernelIdeal.Launch
import proofs.«180451_j15977278341749_2_alg».proof.Proof.Gen.KernelIdeal.Points
import proofs.«180451_j15977278341749_2_alg».proof.Proof.Gen.KernelIdeal.Frame
import proofs.«180451_j15977278341749_2_alg».proof.Proof.Gen.ReferenceIdeal
import proofs.«180451_j15977278341749_2_alg».proof.Proof.Gen.Pre_finite_inputs
import proofs.«180451_j15977278341749_2_alg».proof.Proof.Gen.KernelIdeal.Value
import proofs.«180451_j15977278341749_2_alg».proof.Proof.Gen.ReferenceIdeal.Run
import proofs.«180451_j15977278341749_2_alg».proof.Proof.Gen.ReferenceIdeal.Read
import proofs.«180451_j15977278341749_2_alg».proof.Proof.FiniteArgs
import proofs.«180451_j15977278341749_2_alg».proof.Proof.KernelValue
import proofs.«180451_j15977278341749_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the attention output of the specification in the result array: the kernel's by the
    induction over its grid positions, the reference's stage by stage. -/
theorem algebraic : Cert.algebraic_KernelIdeal_ReferenceIdeal := by
  intro m ρ m' ρ' hpre hagree
  choose X W hXW using fun c => Cert.FiniteArgs.real_args m hpre c
  refine ⟨fun c => Cert.KernelIdeal.Attention.G (X c) (W c) m c, ?_, ?_⟩
  · exact (θ_run Cert.KernelIdeal.defs _ _).mono
      (fun r h c => ⟨(h c).1.trans (Cert.KernelIdeal.Attention.final (X c) (W c) m c (hXW c).1 (hXW c).2), (h c).2⟩)
      (Cert.KernelIdeal.Value.run_blocks m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v27_eq, (hagree c).1, (hagree c).2.1, (hagree c).2.2,
      (hXW c).1, (hXW c).2]
    funext i
    rw [eq_ix3 i]
    exact Cert.ReferenceIdeal.RefValue.ref_apply (X c) (W c) _ (i 0) (i 1) (i 2)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
